-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x512 : Shape := ⟨2, ![100000, 512]⟩
abbrev S4 : Shape := ⟨1, ![4]⟩
abbrev S512x512 : Shape := ⟨2, ![512, 512]⟩
abbrev S512 : Shape := ⟨1, ![512]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S100000x3 .f32) (main_arg1 : FVec F S100000x512 .f32) (main_arg2 : IVec S4 32) (main_arg3 : FVec F S512x512 .f32) (main_arg4 : FVec F S512 .f32) (main_arg5 : FVec F S512 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_v13 main_v16
-- ==== Kernel.lean ====
abbrev S100000x3 : Shape := ⟨2, ![100000, 3]⟩
abbrev S100000x512 : Shape := ⟨2, ![100000, 512]⟩
abbrev S4 : Shape := ⟨1, ![4]⟩
abbrev S512x512 : Shape := ⟨2, ![512, 512]⟩
abbrev S512 : Shape := ⟨1, ![512]⟩
abbrev S8x512 : Shape := ⟨2, ![8, 512]⟩
abbrev S4000x512 : Shape := ⟨2, ![4000, 512]⟩
abbrev S1x512 : Shape := ⟨2, ![1, 512]⟩
abbrev S5000x512 : Shape := ⟨2, ![5000, 512]⟩

abbrev nBuf : Space → Nat
  | .hbm => 11
  | .vmem => 13
  | .smem => 0
  | _ => 0

abbrev bufTy : (tb : Table) → Fin (tcTables nBuf tb) → BufTy
  | .hbm, ⟨0, _⟩ => ⟨S100000x3, .f32⟩
  | .hbm, ⟨1, _⟩ => ⟨S100000x512, .f32⟩
  | .hbm, ⟨2, _⟩ => ⟨S4, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S100000x512, .bf16⟩
  | .hbm, ⟨7, _⟩ => ⟨S8x512, .f32⟩
  | .hbm, ⟨8, _⟩ => ⟨S1x512, .f32⟩
  | .hbm, ⟨9, _⟩ => ⟨S1x512, .f32⟩
  | .hbm, ⟨10, _⟩ => ⟨S100000x512, .f32⟩
  | .local _ .vmem, ⟨0, _⟩ => ⟨S4000x512, .f32⟩
  | .local _ .vmem, ⟨1, _⟩ => ⟨S4000x512, .f32⟩
  | .local _ .vmem, ⟨2, _⟩ => ⟨S512x512, .f32⟩
  | .local _ .vmem, ⟨3, _⟩ => ⟨S4000x512, .bf16⟩
  | .local _ .vmem, ⟨4, _⟩ => ⟨S4000x512, .bf16⟩
  | .local _ .vmem, ⟨5, _⟩ => ⟨S8x512, .f32⟩
  | .local _ .vmem, ⟨6, _⟩ => ⟨S5000x512, .bf16⟩
  | .local _ .vmem, ⟨7, _⟩ => ⟨S5000x512, .bf16⟩
  | .local _ .vmem, ⟨8, _⟩ => ⟨S8x512, .f32⟩
  | .local _ .vmem, ⟨9, _⟩ => ⟨S1x512, .f32⟩
  | .local _ .vmem, ⟨10, _⟩ => ⟨S1x512, .f32⟩
  | .local _ .vmem, ⟨11, _⟩ => ⟨S5000x512, .f32⟩
  | .local _ .vmem, ⟨12, _⟩ => ⟨S5000x512, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32_9 : BitVec 32 := 0#32
  let v26 : BitVec 1 := Scalar.cmpi .eq arg0 c0_i32_9
  let v27 : BitVec 32 := Scalar.extui v26
  let c0_i32_10 : BitVec 32 := 0#32
  let v28 : BitVec 1 := Scalar.cmpi .ne v27 c0_i32_10
  v28

def k0_cond2 (i : grid0.Coords) : BitVec 1 :=
  let arg0 : BitVec 32 := BitVec.ofNat 32 (i 0).val
  let c0_i32_11 : BitVec 32 := 0#32
  let v29 : BitVec 1 := Scalar.cmpi .ne arg0 c0_i32_11
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S4000x512_S4000x512_0_0 : (Rect.unit (s := S4000x512) ![0, 0] S4000x512.size inb_S4000x512_S4000x512_0_0).PackedRows (EltTy.packing .bf16)
  reduces_S4000x512_S512 : S4000x512.Reduces [0] S512
  iota_S8x512_d0_w32 : S8x512.Iotas .tc 32 [0]
  shapeCasts_S512_S1x512 : S512.ShapeCasts S1x512
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  slices_S8x512_o1_0_S1x512 : S8x512.Slices ![1, 0] S1x512
  inb_S1x512_S1x512_0_0 : ∀ a, (![0, 0] : Fin 2 → Nat) a + S1x512.size a ≤ S1x512.size a
  h_S1x512 : 0 < S1x512.numel
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  broadcasts_S1x512_S5000x512 : S1x512.Broadcasts S5000x512
  dot_S4000x512_S512x512_S4000x512_1_1_0_0_n_n_wf : DotDims.WF S4000x512 S512x512 S4000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S100000x512.size a
  hwx0_2 : ∀ i : grid0.Coords, EltTy.bits .bf16 = 32 ∨ (Rect.block (s := S100000x512) S4000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S100000x512.size a
  hwx1_0 : ∀ i : grid1.Coords, EltTy.bits .bf16 = 32 ∨ (Rect.block (s := S100000x512) S5000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S8x512.size a
  hwx1_1 : ∀ i : grid1.Coords, EltTy.bits .f32 = 32 ∨ (Rect.block (s := S8x512) S8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x512.size a ≤ S100000x512.size a
  hwx1_4 : ∀ i : grid1.Coords, EltTy.bits .f32 = 32 ∨ (Rect.block (s := S100000x512) S5000x512.size (cc1_transform_4 i) (hinb1_4 i)).WholeWords (EltTy.packing .f32)

variable [Facts₀]

def dot_S4000x512_S512x512_S4000x512_1_1_0_0_n_n : DotDims S4000x512 S512x512 S4000x512 where
  lhsContracting := [1]
  rhsContracting := [1]
  lhsNonContracting := [0]
  rhsNonContracting := [0]
  lhsBatch := []
  rhsBatch := []
  wf := dot_S4000x512_S512x512_S4000x512_1_1_0_0_n_n_wf

abbrev win0_0 : Pipeline.Window sig grid0 :=
  Pipeline.Window.ofSpec (Memref.whole main_arg1) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_v0_0) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S5000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x3 : Shape := ⟨2, ![100000, 3]⟩
abbrev S100000x512 : Shape := ⟨2, ![100000, 512]⟩
abbrev S4 : Shape := ⟨1, ![4]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x512, .f32⟩
  | .hbm, ⟨2, _⟩ => ⟨S4, .i32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S100000x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .i32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S100000x512, .f32⟩
  | .hbm, ⟨21, _⟩ => ⟨S100000x512, .f32⟩
  | .hbm, ⟨22, _⟩ => ⟨S100000x512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S100000x512, .f32⟩
  | .hbm, ⟨38, _⟩ => ⟨S100000x512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S1x512, .f32⟩
  | .hbm, ⟨44, _⟩ => ⟨S100000x512, .f32⟩
  | .hbm, ⟨45, _⟩ => ⟨S100000x512, .f32⟩
  | .hbm, ⟨46, _⟩ => ⟨S1x512, .f32⟩
  | .hbm, ⟨47, _⟩ => ⟨S100000x512, .f32⟩
  | .hbm, ⟨48, _⟩ => ⟨S100000x512, .f32⟩
  | .hbm, ⟨49, _⟩ => ⟨S1x512, .f32⟩
  | .hbm, ⟨50, _⟩ => ⟨S100000x512, .f32⟩
  | .hbm, ⟨51, _⟩ => ⟨S100000x512, .f32⟩
  | .hbm, ⟨52, _⟩ => ⟨S_, .f32⟩
  | .hbm, ⟨53, _⟩ => ⟨S100000x512, .f32⟩
  | .hbm, ⟨54, _⟩ => ⟨S100000x512, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call1_cst : Ref sig .tc := ⟨.hbm, 52, rfl⟩
abbrev main_call1_v0 : Ref sig .tc := ⟨.hbm, 53, rfl⟩
abbrev main_v21 : Ref sig .tc := ⟨.hbm, 54, rfl⟩

abbrev nD : Nat := 1
abbrev τ : Topo := Topo.v7x

variable {F : FTy → Type} [FloatOps F]

class Facts₀ : Prop where
  transposes_S512x512_S512x512_1_0 : S512x512.Transposes [1, 0] S512x512
  reducesTo_S100000x512_S512_d0 : S100000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  dot_S100000x512_S512x512_S100000x512_1_0_0_1_n_n_wf : DotDims.WF S100000x512 S512x512 S100000x512 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.KernelBody0.lean ====
/-
  The first kernel's body, on whole staging buffers, as two triples.

  At every grid point the body multiplies the point's 4000 rows of `x` by `Wᵀ`, stores the product `h` (one whole
  store), and forms the point's contribution to the column statistics: row 0 the column sums of `h`, row 1 the column
  sums of `h²`, rows 2–7 zero. At the FIRST point the contribution is stored; at EVERY LATER point it is added to what
  the statistics buffer holds. The two conditions are complementary, so each point is in exactly one of the two cases.
-/
import proofs.«117202_g37288906064498_cont_8to1_b_846_11_alg».proof.Proof.Gen.Kernel.Launch
import proofs.«117202_g37288906064498_cont_8to1_b_846_11_alg».proof.Proof.Gen.Kernel.Skeleton
import proofs.«117202_g37288906064498_cont_8to1_b_846_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each one a whole buffer -/

abbrev rX : Rect S4000x512 := Rect.unit (s := S4000x512) ![0, 0] S4000x512.size inb_S4000x512_S4000x512_0_0
abbrev rW : Rect S512x512 := Rect.unit (s := S512x512) ![0, 0] S512x512.size inb_S512x512_S512x512_0_0
abbrev rS : Rect S8x512 := Rect.unit (s := S8x512) ![0, 0] S8x512.size inb_S8x512_S8x512_0_0

/-! ## What the body leaves in each output buffer -/

/-- The product buffer after the body: the point's rows of `x` against `Wᵀ`. -/
def outH (x0 : Vec F S4000x512 .f32) (x1 : Vec F S512x512 .f32) : Vec F S4000x512 .bf16 :=
  View.canon [⟨rX, k0_pay2 (View.ld x0 rX) (View.ld x1 rW)⟩]

/-- The statistics buffer after the body at the first point: the point's contribution. -/
def outS0 (x0 : Vec F S4000x512 .f32) (x1 : Vec F S512x512 .f32) : Vec F S8x512 .f32 :=
  View.canon [⟨rS, k0_pay3 (View.ld x0 rX) (View.ld x1 rW)⟩]

/-- The statistics buffer after the body at a later point: what it held, plus the point's contribution. -/
def outS1 (x0 : Vec F S4000x512 .f32) (x1 : Vec F S512x512 .f32) (xo : Vec F S8x512 .f32) : Vec F S8x512 .f32 :=
  View.canon [⟨rS, k0_pay4 (View.ld x0 rX) (View.ld x1 rW) (View.ld xo rS)⟩]

/-- One whole store covers its buffer. -/
theorem coverH (p : Vec F S4000x512 .bf16) (y : S4000x512.Idx) :
    ∃ pc ∈ ([⟨rX, p⟩] : List (View.Piece (Elt F) S4000x512 .bf16)), y ∈ pc.1.set :=
  View.cover_of_tiled [⟨rX, p⟩] S4000x512.size (by rfl) y

theorem coverS (p : Vec F S8x512 .f32) (y : S8x512.Idx) :
    ∃ pc ∈ ([⟨rS, p⟩] : List (View.Piece (Elt F) S8x512 .f32)), y ∈ pc.1.set :=
  View.cover_of_tiled [⟨rS, p⟩] S8x512.size (by rfl) y

/-! ## The two triples -/

set_option maxHeartbeats 1000000 in
/-- FIRST POINT: the inputs' buffers at `x0`, `x1`, the outputs' at anything; afterwards the inputs as they were,
    the product at `outH`, the statistics at the point's contribution. -/
theorem sound_first (c : Dev nD) (E : Set ℕ) (i : grid0.Coords)
    (arg1 : Memref sig .tc .vmem S4000x512 .f32) (harg1 : arg1.IsWhole) (arg2 : Memref sig .tc .vmem S512x512 .f32) (harg2 : arg2.IsWhole)
    (arg3 : Memref sig .tc .vmem S4000x512 .bf16) (harg3 : arg3.IsWhole) (arg4 : Memref sig .tc .vmem S8x512 .f32) (harg4 : arg4.IsWhole)
    (hc1 : k0_cond1 i = 1#1) (hc2 : ¬k0_cond2 i = 1#1)
    (x0 : Vec F S4000x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outH x0 x1) ∗ owns (c : Thread nD τ) arg4 fullShare (outS0 x0 x1)) -∗ K ⟨⟩))
      ⊢ wp frame (wpE (defs₀ (F := F)) Variants.none c none) E (cc0__mm_stats_body i arg1 harg1 arg2 harg2 arg3 harg3 arg4 harg4) K := by
  simp only [cc0__mm_stats_body_eq_skeleton]; unfold cc0__mm_stats_body_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverH _)
  iexists _; isplitr
  swap; · iexact H3
  ipureintro
  exact View.read_writes_eq_canon _ _ _ (coverS _)

set_option maxHeartbeats 1000000 in
/-- A LATER POINT: the statistics buffer at `xo` on entry; afterwards at `xo` plus the point's contribution. -/
theorem sound_later (c : Dev nD) (E : Set ℕ) (i : grid0.Coords)
    (arg1 : Memref sig .tc .vmem S4000x512 .f32) (harg1 : arg1.IsWhole) (arg2 : Memref sig .tc .vmem S512x512 .f32) (harg2 : arg2.IsWhole)
    (arg3 : Memref sig .tc .vmem S4000x512 .bf16) (harg3 : arg3.IsWhole) (arg4 : Memref sig .tc .vmem S8x512 .f32) (harg4 : arg4.IsWhole)
    (hc1 : ¬k0_cond1 i = 1#1) (hc2 : k0_cond2 i = 1#1)
    (x0 : Vec F S4000x512 .f32) (x1 : Vec F S512x512 .f32) (xo : Vec F S8x512 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo
        ∗ (iprop(owns (c : Thread nD τ) arg1 fullShare x0 ∗ owns (c : Thread nD τ) arg2 fullShare x1
            ∗ owns (c : Thread nD τ) arg3 fullShare (outH x0 x1) ∗ owns (c : Thread nD τ) arg4 fullShare (outS1 x0 x1 xo)) -∗ K ⟨⟩))
      ⊢ wp frame (wpE (defs₀ (F := F)) Variants.none c none) E (cc0__mm_stats_body i arg1 harg1 arg2 harg2 arg3 harg3 arg4 harg4) K := by
  simp only [cc0__mm_stats_body_eq_skeleton]; unfold cc0__mm_stats_body_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverH _)
  iexists _; isplitr
  swap; · iexact H3
  ipureintro
  exact View.read_writes_eq_canon _ _ _ (coverS _)

end Cert.Kernel.Hand

end
-- ==== Proof.KernelData0.lean ====
/-
  The first kernel's proof data: what every staging buffer holds after the body at each grid point.

  The inputs' buffers hold their blocks: rows `4000·t … 4000·t + 3999` of `x`, and all of `W`. The product's buffer
  holds the point's product. The statistics' buffer is never written back before the last point and its block never
  moves, so after point `t` it holds the contributions of points `0 … t` added up: by recursion on the point, the first
  point's contribution, then at each later point what the point before left plus that point's contribution.
-/
import proofs.«117202_g37288906064498_cont_8to1_b_846_11_alg».proof.Proof.Gen.Kernel.Launch
import proofs.«117202_g37288906064498_cont_8to1_b_846_11_alg».proof.Proof.Gen.Kernel.Skeleton
import proofs.«117202_g37288906064498_cont_8to1_b_846_11_alg».proof.Proof.Gen.Kernel.Points
import proofs.«117202_g37288906064498_cont_8to1_b_846_11_alg».proof.Proof.KernelBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions over the grid, and the statistics window live at every point -/

/-- The reset's condition holds at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the accumulation's at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two holds at every point: the statistics window is stored into at every point. -/
theorem live3 : ∀ t : Fin cfg0.N, cfg0.idle 3 (cfg0.grid.coords t) = false :=
  (by decide +kernel : ∀ t : Fin grid0.N, idle0 3 (grid0.coords t) = false)
/-- The same fact with the table named directly. -/
theorem live3' : ∀ t : Fin cfg0.N, idle0 3 (grid0.coords t) = false :=
  (by decide +kernel : ∀ t : Fin grid0.N, idle0 3 (grid0.coords t) = false)
/-- The same at any coordinates: both conditions read the one coordinate only. -/
theorem live3i : ∀ i : cfg0.grid.Coords, cfg0.idle 3 i = false := fun i =>
  (by decide +kernel : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running statistics -/

/-- What the statistics' staging buffer holds after the body at position `n`: the contributions of points `0 … n`. -/
def statsAt (c : Dev nD) : (n : ℕ) → n < cfg0.N → Vec F S8x512 .f32
  | 0, hn => outS0 (iblk0 V c 0 ⟨0, hn⟩) (iblk0 V c 1 ⟨0, hn⟩)
  | n + 1, hn => outS1 (iblk0 V c 0 ⟨n + 1, hn⟩) (iblk0 V c 1 ⟨n + 1, hn⟩) (statsAt c n (Nat.lt_of_succ_lt hn))

theorem statsAt_first (c : Dev nD) (t : Fin cfg0.N) (h0 : t.val = 0) :
    statsAt V c t.val t.isLt = outS0 (iblk0 V c 0 t) (iblk0 V c 1 t) := by
  obtain ⟨n, hn⟩ := t
  cases n with
  | zero => exact rfl
  | succ n => exact absurd h0 (Nat.succ_ne_zero n)

theorem statsAt_later (c : Dev nD) (t : Fin cfg0.N) (h0 : t.val ≠ 0) :
    statsAt V c t.val t.isLt = outS1 (iblk0 V c 0 t) (iblk0 V c 1 t) (statsAt V c (t.val - 1) (Nat.lt_of_le_of_lt (Nat.sub_le _ _) t.isLt)) := by
  obtain ⟨n, hn⟩ := t
  cases n with
  | zero => exact absurd rfl h0
  | succ n => exact rfl

/-! ## The proof data -/

/-- The proof data of pipeline 0 on core `c`: the arrays as the region finds them (`V`); after the body at point `t`
    each input's buffer at its block, the product's at the point's product, the statistics' at the running sums; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outH (iblk0 V c 0 t) (iblk0 V c 1 t)
    | ⟨3, _⟩ => statsAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outH (iblk0 V c 0 t) (iblk0 V c 1 t) := by dsimp only [dat0]
theorem after0_3 (c : Dev nD) (t : Fin cfg0.N) : (dat0 V c).after 3 t = statsAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point the statistics' buffer holds what the body left at the point before: the buffer is written back
    at the last point only, the window is live and uncut. -/
theorem before0_3_later (c : Dev nD) (t : Fin cfg0.N) (h0 : t.val ≠ 0) (d) :
    (dat0 V c).before 3 t d = statsAt V c (t.val - 1) (Nat.lt_of_le_of_lt (Nat.sub_le _ _) t.isLt) := by
  have hN : t.val < 25 := lt_of_lt_of_eq t.isLt (show cfg0.N = 25 from N_0)
  rw [Dat.before_out_kept _ 3 rfl t h0 (Bool.eq_false_iff.mpr fun h => by have := (flush0_3 _).mp h; dsimp only at this; omega)
    (fun i => live3i i) (fun _ _ => rfl)]
  dsimp only [dat0]

end Cert.Kernel.Hand

end
-- ==== Proof.KernelOblig0.lean ====
/-
  The first kernel's body obligation: at every grid point the body, called on the current staging buffers holding
  what the proof data say they hold, leaves them at what the proof data say it leaves. The point is the first or a
  later one; the first resets the statistics, a later one finds the running sums the point before left and adds to them.
-/
import proofs.«117202_g37288906064498_cont_8to1_b_846_11_alg».proof.Proof.Gen.Kernel.Launch
import proofs.«117202_g37288906064498_cont_8to1_b_846_11_alg».proof.Proof.Gen.Kernel.Skeleton
import proofs.«117202_g37288906064498_cont_8to1_b_846_11_alg».proof.Proof.Gen.Kernel.Points
import proofs.«117202_g37288906064498_cont_8to1_b_846_11_alg».proof.Proof.KernelData0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [statsAt_first V c t h0]
    iintro ⟨HΦ, Ho, ⟨%d0, H0⟩, ⟨%d1, H1⟩, ⟨%d2, H2⟩, ⟨%d3, H3⟩⟩
    iapply (sound_first c Set.univ (grid0.coords t) _ _ _ _ _ _ _ _ ((hcond1 t).mpr h0) (fun h => (hcond2 t).mp h h0)
      (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [statsAt_later V c t h0]
    simp only [before0_3_later V c t h0]
    iintro ⟨HΦ, Ho, ⟨%d0, H0⟩, ⟨%d1, H1⟩, ⟨%d2, H2⟩, ⟨%d3, H3⟩⟩
    iapply (sound_later c Set.univ (grid0.coords t) _ _ _ _ _ _ _ _ (fun h => h0 ((hcond1 t).mp h)) ((hcond2 t).mpr h0)
      (iblk0 V c 0 t) (iblk0 V c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  simp only [live3 t, live3' t]
  exact sound_body0 V c t

end Cert.Kernel.Hand

end
-- ==== Proof.KernelBody1.lean ====
/-
  The second kernel's body, on whole staging buffers, as one triple.

  At every grid point the body reads the statistics (row 0 the column sums of `h`, row 1 the column sums of `h²`),
  `γ`, `β` and the point's 5000 rows of `h`, and stores, in one whole store, `max (h · s + (β − mean · s)) 0` with
  `mean = row 0 / n`, `s = γ · (row 1 / n − mean² + ε)^(-1/2)`, every column's scalars spread down the rows.
-/
import proofs.«117202_g37288906064498_cont_8to1_b_846_11_alg».proof.Proof.Gen.Kernel.Launch
import proofs.«117202_g37288906064498_cont_8to1_b_846_11_alg».proof.Proof.Gen.Kernel.Skeleton
import proofs.«117202_g37288906064498_cont_8to1_b_846_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each one a whole buffer -/

abbrev qH : Rect S5000x512 := Rect.unit (s := S5000x512) ![0, 0] S5000x512.size inb_S5000x512_S5000x512_0_0
abbrev qS : Rect S8x512 := Rect.unit (s := S8x512) ![0, 0] S8x512.size inb_S8x512_S8x512_0_0
abbrev qV : Rect S1x512 := Rect.unit (s := S1x512) ![0, 0] S1x512.size inb_S1x512_S1x512_0_0

/-! ## What the body leaves in the output buffer -/

/-- The result buffer after the body, from the four inputs' buffers. -/
def outO (xh : Vec F S5000x512 .bf16) (xs : Vec F S8x512 .f32) (xg xb : Vec F S1x512 .f32) : Vec F S5000x512 .f32 :=
  View.canon [⟨qH, k1_pay1 (View.ld xs qS) (View.ld xg qV) (View.ld xb qV) (View.ld xh qH)⟩]

/-- One whole store covers its buffer. -/
theorem coverO (p : Vec F S5000x512 .f32) (y : S5000x512.Idx) :
    ∃ pc ∈ ([⟨qH, p⟩] : List (View.Piece (Elt F) S5000x512 .f32)), y ∈ pc.1.set :=
  View.cover_of_tiled [⟨qH, p⟩] S5000x512.size (by rfl) y

/-! ## The triple -/

set_option maxHeartbeats 1000000 in
/-- The inputs' buffers at their contents, the output's at anything; afterwards the inputs as they were and the
    output at `outO` of them. -/
theorem sound_norm (c : Dev nD) (E : Set ℕ) (i : grid1.Coords)
    (arg1 : Memref sig .tc .vmem S5000x512 .bf16) (harg1 : arg1.IsWhole) (arg2 : Memref sig .tc .vmem S8x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S5000x512 .f32) (harg5 : arg5.IsWhole)
    (xh : Vec F S5000x512 .bf16) (xs : Vec F S8x512 .f32) (xg xb : Vec F S1x512 .f32) (K : PUnit → sProp 𝕄) :
    iprop(owns (c : Thread nD τ) arg1 fullShare xh ∗ owns (c : Thread nD τ) arg2 fullShare xs
        ∗ owns (c : Thread nD τ) arg3 fullShare xg ∗ owns (c : Thread nD τ) arg4 fullShare xb
        ∗ (∃ d, owns (c : Thread nD τ) arg5 fullShare d)
        ∗ (iprop(owns (c : Thread nD τ) arg1 fullShare xh ∗ owns (c : Thread nD τ) arg2 fullShare xs
            ∗ owns (c : Thread nD τ) arg3 fullShare xg ∗ owns (c : Thread nD τ) arg4 fullShare xb
            ∗ owns (c : Thread nD τ) arg5 fullShare (outO xh xs xg xb)) -∗ K ⟨⟩))
      ⊢ wp frame (wpE (defs₀ (F := F)) Variants.none c none) E (cc1__norm_body i arg1 harg1 arg2 harg2 arg3 harg3 arg4 harg4 arg5 harg5) K := by
  simp only [cc1__norm_body_eq_skeleton]; unfold cc1__norm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

end Cert.Kernel.Hand

end
-- ==== Proof.KernelData1.lean ====
/-
  The second kernel's proof data and its body obligation.

  The inputs' buffers hold their blocks at every point: rows `5000·t … 5000·t + 4999` of the product, and all of the
  statistics, of `γ` and of `β` (each as one row). The output's buffer holds, after the body, the body's result on those.
-/
import proofs.«117202_g37288906064498_cont_8to1_b_846_11_alg».proof.Proof.Gen.Kernel.Launch
import proofs.«117202_g37288906064498_cont_8to1_b_846_11_alg».proof.Proof.Gen.Kernel.Skeleton
import proofs.«117202_g37288906064498_cont_8to1_b_846_11_alg».proof.Proof.Gen.Kernel.Points
import proofs.«117202_g37288906064498_cont_8to1_b_846_11_alg».proof.Proof.KernelBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The proof data of pipeline 1 on core `c`: the arrays as the region finds them (`V`); after the body at point `t`
    each input's buffer at its block and the output's at the body's result on the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outO (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outO (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_norm c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRun.lean ====
/-
  The whole run of @main: the first kernel's region, the two reshapes of `γ` and `β` on the host, the second kernel's
  region, each entered from what the one before left.

  Between two of them the core holds every unscoped buffer at a valuation: the launch memory `W0`; after the first
  region `W1`, which is `W0` with the region's arrays at what its write-backs leave; after the reshapes `W2`; after the
  second region `W3`. Every weakly fair execution terminates, and the final memory holds every unscoped buffer at
  `W3`: the result array at what the second region's write-backs leave, and each argument — which no reshape writes and
  no region writes back — as launched.
-/
import proofs.«117202_g37288906064498_cont_8to1_b_846_11_alg».proof.Proof.Gen.Kernel.Launch
import proofs.«117202_g37288906064498_cont_8to1_b_846_11_alg».proof.Proof.Gen.Kernel.Skeleton
import proofs.«117202_g37288906064498_cont_8to1_b_846_11_alg».proof.Proof.Gen.Kernel.Points
import proofs.«117202_g37288906064498_cont_8to1_b_846_11_alg».proof.Proof.KernelOblig0
import proofs.«117202_g37288906064498_cont_8to1_b_846_11_alg».proof.Proof.KernelData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (the first region's entry). -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- The reshapes write their two results and nothing else. -/
theorem W2_keeps (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_keeps m ρ c main_arg0 (by decide) (by decide)
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_keeps m ρ c main_arg1 (by decide) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_keeps m ρ c main_arg2 (by decide) (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_keeps m ρ c main_arg3 (by decide) (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_keeps m ρ c main_arg4 (by decide) (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_keeps m ρ c main_arg5 (by decide) (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds the result array at what the second region's write-backs leave and every argument as launched. -/
theorem run : θ_run defs (onTc (τ := τ) (main (F := F))) ⟨m, fun _ => 0, ρ⟩ (fun r => ∀ c : Dev nD,
      r.2.mem ((c.tc : Thread nD τ).loc main_v3) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.Kernel.Hand

end
-- ==== Proof.KernelIdealBody0.lean ====
/-
  The first kernel's body, on whole staging buffers, as two triples.

  At every grid point the body multiplies the point's 4000 rows of `x` by `Wᵀ`, stores the product `h` (one whole
  store), and forms the point's contribution to the column statistics: row 0 the column sums of `h`, row 1 the column
  sums of `h²`, rows 2–7 zero. At the FIRST point the contribution is stored; at EVERY LATER point it is added to what
  the statistics buffer holds. The two conditions are complementary, so each point is in exactly one of the two cases.
-/
import proofs.«117202_g37288906064498_cont_8to1_b_846_11_alg».proof.Proof.Gen.KernelIdeal.Launch
import proofs.«117202_g37288906064498_cont_8to1_b_846_11_alg».proof.Proof.Gen.KernelIdeal.Skeleton
import proofs.«117202_g37288906064498_cont_8to1_b_846_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each one a whole buffer -/

abbrev rX : Rect S4000x512 := Rect.unit (s := S4000x512) ![0, 0] S4000x512.size inb_S4000x512_S4000x512_0_0
abbrev rW : Rect S512x512 := Rect.unit (s := S512x512) ![0, 0] S512x512.size inb_S512x512_S512x512_0_0
abbrev rS : Rect S8x512 := Rect.unit (s := S8x512) ![0, 0] S8x512.size inb_S8x512_S8x512_0_0

/-! ## What the body leaves in each output buffer -/

/-- The product buffer after the body: the point's rows of `x` against `Wᵀ`. -/
def outH (x0 : Vec F S4000x512 .f32) (x1 : Vec F S512x512 .f32) : Vec F S4000x512 .bf16 :=
  View.canon [⟨rX, k0_pay2 (View.ld x0 rX) (View.ld x1 rW)⟩]

/-- The statistics buffer after the body at the first point: the point's contribution. -/
def outS0 (x0 : Vec F S4000x512 .f32) (x1 : Vec F S512x512 .f32) : Vec F S8x512 .f32 :=
  View.canon [⟨rS, k0_pay3 (View.ld x0 rX) (View.ld x1 rW)⟩]

/-- The statistics buffer after the body at a later point: what it held, plus the point's contribution. -/
def outS1 (x0 : Vec F S4000x512 .f32) (x1 : Vec F S512x512 .f32) (xo : Vec F S8x512 .f32) : Vec F S8x512 .f32 :=
  View.canon [⟨rS, k0_pay4 (View.ld x0 rX) (View.ld x1 rW) (View.ld xo rS)⟩]

/-- One whole store covers its buffer. -/
theorem coverH (p : Vec F S4000x512 .bf16) (y : S4000x512.Idx) :
    ∃ pc ∈ ([⟨rX, p⟩] : List (View.Piece (Elt F) S4000x512 .bf16)), y ∈ pc.1.set :=
  View.cover_of_tiled [⟨rX, p⟩] S4000x512.size (by rfl) y

theorem coverS (p : Vec F S8x512 .f32) (y : S8x512.Idx) :
    ∃ pc ∈ ([⟨rS, p⟩] : List (View.Piece (Elt F) S8x512 .f32)), y ∈ pc.1.set :=
  View.cover_of_tiled [⟨rS, p⟩] S8x512.size (by rfl) y

/-! ## The two triples -/

set_option maxHeartbeats 1000000 in
/-- FIRST POINT: the inputs' buffers at `x0`, `x1`, the outputs' at anything; afterwards the inputs as they were,
    the product at `outH`, the statistics at the point's contribution. -/
theorem sound_first (c : Dev nD) (E : Set ℕ) (i : grid0.Coords)
    (arg1 : Memref sig .tc .vmem S4000x512 .f32) (harg1 : arg1.IsWhole) (arg2 : Memref sig .tc .vmem S512x512 .f32) (harg2 : arg2.IsWhole)
    (arg3 : Memref sig .tc .vmem S4000x512 .bf16) (harg3 : arg3.IsWhole) (arg4 : Memref sig .tc .vmem S8x512 .f32) (harg4 : arg4.IsWhole)
    (hc1 : k0_cond1 i = 1#1) (hc2 : ¬k0_cond2 i = 1#1)
    (x0 : Vec F S4000x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outH x0 x1) ∗ owns (c : Thread nD τ) arg4 fullShare (outS0 x0 x1)) -∗ K ⟨⟩))
      ⊢ wp frame (wpE (defs₀ (F := F)) Variants.none c none) E (cc0__mm_stats_body i arg1 harg1 arg2 harg2 arg3 harg3 arg4 harg4) K := by
  simp only [cc0__mm_stats_body_eq_skeleton]; unfold cc0__mm_stats_body_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverH _)
  iexists _; isplitr
  swap; · iexact H3
  ipureintro
  exact View.read_writes_eq_canon _ _ _ (coverS _)

set_option maxHeartbeats 1000000 in
/-- A LATER POINT: the statistics buffer at `xo` on entry; afterwards at `xo` plus the point's contribution. -/
theorem sound_later (c : Dev nD) (E : Set ℕ) (i : grid0.Coords)
    (arg1 : Memref sig .tc .vmem S4000x512 .f32) (harg1 : arg1.IsWhole) (arg2 : Memref sig .tc .vmem S512x512 .f32) (harg2 : arg2.IsWhole)
    (arg3 : Memref sig .tc .vmem S4000x512 .bf16) (harg3 : arg3.IsWhole) (arg4 : Memref sig .tc .vmem S8x512 .f32) (harg4 : arg4.IsWhole)
    (hc1 : ¬k0_cond1 i = 1#1) (hc2 : k0_cond2 i = 1#1)
    (x0 : Vec F S4000x512 .f32) (x1 : Vec F S512x512 .f32) (xo : Vec F S8x512 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo
        ∗ (iprop(owns (c : Thread nD τ) arg1 fullShare x0 ∗ owns (c : Thread nD τ) arg2 fullShare x1
            ∗ owns (c : Thread nD τ) arg3 fullShare (outH x0 x1) ∗ owns (c : Thread nD τ) arg4 fullShare (outS1 x0 x1 xo)) -∗ K ⟨⟩))
      ⊢ wp frame (wpE (defs₀ (F := F)) Variants.none c none) E (cc0__mm_stats_body i arg1 harg1 arg2 harg2 arg3 harg3 arg4 harg4) K := by
  simp only [cc0__mm_stats_body_eq_skeleton]; unfold cc0__mm_stats_body_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverH _)
  iexists _; isplitr
  swap; · iexact H3
  ipureintro
  exact View.read_writes_eq_canon _ _ _ (coverS _)

end Cert.KernelIdeal.Hand

end
-- ==== Proof.KernelIdealData0.lean ====
/-
  The first kernel's proof data: what every staging buffer holds after the body at each grid point.

  The inputs' buffers hold their blocks: rows `4000·t … 4000·t + 3999` of `x`, and all of `W`. The product's buffer
  holds the point's product. The statistics' buffer is never written back before the last point and its block never
  moves, so after point `t` it holds the contributions of points `0 … t` added up: by recursion on the point, the first
  point's contribution, then at each later point what the point before left plus that point's contribution.
-/
import proofs.«117202_g37288906064498_cont_8to1_b_846_11_alg».proof.Proof.Gen.KernelIdeal.Launch
import proofs.«117202_g37288906064498_cont_8to1_b_846_11_alg».proof.Proof.Gen.KernelIdeal.Skeleton
import proofs.«117202_g37288906064498_cont_8to1_b_846_11_alg».proof.Proof.Gen.KernelIdeal.Points
import proofs.«117202_g37288906064498_cont_8to1_b_846_11_alg».proof.Proof.KernelIdealBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions over the grid, and the statistics window live at every point -/

/-- The reset's condition holds at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the accumulation's at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two holds at every point: the statistics window is stored into at every point. -/
theorem live3 : ∀ t : Fin cfg0.N, cfg0.idle 3 (cfg0.grid.coords t) = false :=
  (by decide +kernel : ∀ t : Fin grid0.N, idle0 3 (grid0.coords t) = false)
/-- The same fact with the table named directly. -/
theorem live3' : ∀ t : Fin cfg0.N, idle0 3 (grid0.coords t) = false :=
  (by decide +kernel : ∀ t : Fin grid0.N, idle0 3 (grid0.coords t) = false)
/-- The same at any coordinates: both conditions read the one coordinate only. -/
theorem live3i : ∀ i : cfg0.grid.Coords, cfg0.idle 3 i = false := fun i =>
  (by decide +kernel : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false) (i 0)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running statistics -/

/-- What the statistics' staging buffer holds after the body at position `n`: the contributions of points `0 … n`. -/
def statsAt (c : Dev nD) : (n : ℕ) → n < cfg0.N → Vec F S8x512 .f32
  | 0, hn => outS0 (iblk0 V c 0 ⟨0, hn⟩) (iblk0 V c 1 ⟨0, hn⟩)
  | n + 1, hn => outS1 (iblk0 V c 0 ⟨n + 1, hn⟩) (iblk0 V c 1 ⟨n + 1, hn⟩) (statsAt c n (Nat.lt_of_succ_lt hn))

theorem statsAt_first (c : Dev nD) (t : Fin cfg0.N) (h0 : t.val = 0) :
    statsAt V c t.val t.isLt = outS0 (iblk0 V c 0 t) (iblk0 V c 1 t) := by
  obtain ⟨n, hn⟩ := t
  cases n with
  | zero => exact rfl
  | succ n => exact absurd h0 (Nat.succ_ne_zero n)

theorem statsAt_later (c : Dev nD) (t : Fin cfg0.N) (h0 : t.val ≠ 0) :
    statsAt V c t.val t.isLt = outS1 (iblk0 V c 0 t) (iblk0 V c 1 t) (statsAt V c (t.val - 1) (Nat.lt_of_le_of_lt (Nat.sub_le _ _) t.isLt)) := by
  obtain ⟨n, hn⟩ := t
  cases n with
  | zero => exact absurd rfl h0
  | succ n => exact rfl

/-! ## The proof data -/

/-- The proof data of pipeline 0 on core `c`: the arrays as the region finds them (`V`); after the body at point `t`
    each input's buffer at its block, the product's at the point's product, the statistics' at the running sums; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outH (iblk0 V c 0 t) (iblk0 V c 1 t)
    | ⟨3, _⟩ => statsAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outH (iblk0 V c 0 t) (iblk0 V c 1 t) := by dsimp only [dat0]
theorem after0_3 (c : Dev nD) (t : Fin cfg0.N) : (dat0 V c).after 3 t = statsAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point the statistics' buffer holds what the body left at the point before: the buffer is written back
    at the last point only, the window is live and uncut. -/
theorem before0_3_later (c : Dev nD) (t : Fin cfg0.N) (h0 : t.val ≠ 0) (d) :
    (dat0 V c).before 3 t d = statsAt V c (t.val - 1) (Nat.lt_of_le_of_lt (Nat.sub_le _ _) t.isLt) := by
  have hN : t.val < 25 := lt_of_lt_of_eq t.isLt (show cfg0.N = 25 from N_0)
  rw [Dat.before_out_kept _ 3 rfl t h0 (Bool.eq_false_iff.mpr fun h => by have := (flush0_3 _).mp h; dsimp only at this; omega)
    (fun i => live3i i) (fun _ _ => rfl)]
  dsimp only [dat0]

end Cert.KernelIdeal.Hand

end
-- ==== Proof.KernelIdealOblig0.lean ====
/-
  The first kernel's body obligation: at every grid point the body, called on the current staging buffers holding
  what the proof data say they hold, leaves them at what the proof data say it leaves. The point is the first or a
  later one; the first resets the statistics, a later one finds the running sums the point before left and adds to them.
-/
import proofs.«117202_g37288906064498_cont_8to1_b_846_11_alg».proof.Proof.Gen.KernelIdeal.Launch
import proofs.«117202_g37288906064498_cont_8to1_b_846_11_alg».proof.Proof.Gen.KernelIdeal.Skeleton
import proofs.«117202_g37288906064498_cont_8to1_b_846_11_alg».proof.Proof.Gen.KernelIdeal.Points
import proofs.«117202_g37288906064498_cont_8to1_b_846_11_alg».proof.Proof.KernelIdealData0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [statsAt_first V c t h0]
    iintro ⟨HΦ, Ho, ⟨%d0, H0⟩, ⟨%d1, H1⟩, ⟨%d2, H2⟩, ⟨%d3, H3⟩⟩
    iapply (sound_first c Set.univ (grid0.coords t) _ _ _ _ _ _ _ _ ((hcond1 t).mpr h0) (fun h => (hcond2 t).mp h h0)
      (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [statsAt_later V c t h0]
    simp only [before0_3_later V c t h0]
    iintro ⟨HΦ, Ho, ⟨%d0, H0⟩, ⟨%d1, H1⟩, ⟨%d2, H2⟩, ⟨%d3, H3⟩⟩
    iapply (sound_later c Set.univ (grid0.coords t) _ _ _ _ _ _ _ _ (fun h => h0 ((hcond1 t).mp h)) ((hcond2 t).mpr h0)
      (iblk0 V c 0 t) (iblk0 V c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  simp only [live3 t, live3' t]
  exact sound_body0 V c t

end Cert.KernelIdeal.Hand

end
-- ==== Proof.KernelIdealBody1.lean ====
/-
  The second kernel's body, on whole staging buffers, as one triple.

  At every grid point the body reads the statistics (row 0 the column sums of `h`, row 1 the column sums of `h²`),
  `γ`, `β` and the point's 5000 rows of `h`, and stores, in one whole store, `max (h · s + (β − mean · s)) 0` with
  `mean = row 0 / n`, `s = γ · (row 1 / n − mean² + ε)^(-1/2)`, every column's scalars spread down the rows.
-/
import proofs.«117202_g37288906064498_cont_8to1_b_846_11_alg».proof.Proof.Gen.KernelIdeal.Launch
import proofs.«117202_g37288906064498_cont_8to1_b_846_11_alg».proof.Proof.Gen.KernelIdeal.Skeleton
import proofs.«117202_g37288906064498_cont_8to1_b_846_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each one a whole buffer -/

abbrev qH : Rect S5000x512 := Rect.unit (s := S5000x512) ![0, 0] S5000x512.size inb_S5000x512_S5000x512_0_0
abbrev qS : Rect S8x512 := Rect.unit (s := S8x512) ![0, 0] S8x512.size inb_S8x512_S8x512_0_0
abbrev qV : Rect S1x512 := Rect.unit (s := S1x512) ![0, 0] S1x512.size inb_S1x512_S1x512_0_0

/-! ## What the body leaves in the output buffer -/

/-- The result buffer after the body, from the four inputs' buffers. -/
def outO (xh : Vec F S5000x512 .bf16) (xs : Vec F S8x512 .f32) (xg xb : Vec F S1x512 .f32) : Vec F S5000x512 .f32 :=
  View.canon [⟨qH, k1_pay1 (View.ld xs qS) (View.ld xg qV) (View.ld xb qV) (View.ld xh qH)⟩]

/-- One whole store covers its buffer. -/
theorem coverO (p : Vec F S5000x512 .f32) (y : S5000x512.Idx) :
    ∃ pc ∈ ([⟨qH, p⟩] : List (View.Piece (Elt F) S5000x512 .f32)), y ∈ pc.1.set :=
  View.cover_of_tiled [⟨qH, p⟩] S5000x512.size (by rfl) y

/-! ## The triple -/

set_option maxHeartbeats 1000000 in
/-- The inputs' buffers at their contents, the output's at anything; afterwards the inputs as they were and the
    output at `outO` of them. -/
theorem sound_norm (c : Dev nD) (E : Set ℕ) (i : grid1.Coords)
    (arg1 : Memref sig .tc .vmem S5000x512 .bf16) (harg1 : arg1.IsWhole) (arg2 : Memref sig .tc .vmem S8x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S5000x512 .f32) (harg5 : arg5.IsWhole)
    (xh : Vec F S5000x512 .bf16) (xs : Vec F S8x512 .f32) (xg xb : Vec F S1x512 .f32) (K : PUnit → sProp 𝕄) :
    iprop(owns (c : Thread nD τ) arg1 fullShare xh ∗ owns (c : Thread nD τ) arg2 fullShare xs
        ∗ owns (c : Thread nD τ) arg3 fullShare xg ∗ owns (c : Thread nD τ) arg4 fullShare xb
        ∗ (∃ d, owns (c : Thread nD τ) arg5 fullShare d)
        ∗ (iprop(owns (c : Thread nD τ) arg1 fullShare xh ∗ owns (c : Thread nD τ) arg2 fullShare xs
            ∗ owns (c : Thread nD τ) arg3 fullShare xg ∗ owns (c : Thread nD τ) arg4 fullShare xb
            ∗ owns (c : Thread nD τ) arg5 fullShare (outO xh xs xg xb)) -∗ K ⟨⟩))
      ⊢ wp frame (wpE (defs₀ (F := F)) Variants.none c none) E (cc1__norm_body i arg1 harg1 arg2 harg2 arg3 harg3 arg4 harg4 arg5 harg5) K := by
  simp only [cc1__norm_body_eq_skeleton]; unfold cc1__norm_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

end Cert.KernelIdeal.Hand

end
-- ==== Proof.KernelIdealData1.lean ====
/-
  The second kernel's proof data and its body obligation.

  The inputs' buffers hold their blocks at every point: rows `5000·t … 5000·t + 4999` of the product, and all of the
  statistics, of `γ` and of `β` (each as one row). The output's buffer holds, after the body, the body's result on those.
-/
import proofs.«117202_g37288906064498_cont_8to1_b_846_11_alg».proof.Proof.Gen.KernelIdeal.Launch
import proofs.«117202_g37288906064498_cont_8to1_b_846_11_alg».proof.Proof.Gen.KernelIdeal.Skeleton
import proofs.«117202_g37288906064498_cont_8to1_b_846_11_alg».proof.Proof.Gen.KernelIdeal.Points
import proofs.«117202_g37288906064498_cont_8to1_b_846_11_alg».proof.Proof.KernelIdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The proof data of pipeline 1 on core `c`: the arrays as the region finds them (`V`); after the body at point `t`
    each input's buffer at its block and the output's at the body's result on the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outO (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = outO (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_norm c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRun.lean ====
/-
  The whole run of @main: the first kernel's region, the two reshapes of `γ` and `β` on the host, the second kernel's
  region, each entered from what the one before left.

  Between two of them the core holds every unscoped buffer at a valuation: the launch memory `W0`; after the first
  region `W1`, which is `W0` with the region's arrays at what its write-backs leave; after the reshapes `W2`; after the
  second region `W3`. Every weakly fair execution terminates, and the final memory holds every unscoped buffer at
  `W3`: the result array at what the second region's write-backs leave, and each argument — which no reshape writes and
  no region writes back — as launched.
-/
import proofs.«117202_g37288906064498_cont_8to1_b_846_11_alg».proof.Proof.Gen.KernelIdeal.Launch
import proofs.«117202_g37288906064498_cont_8to1_b_846_11_alg».proof.Proof.Gen.KernelIdeal.Skeleton
import proofs.«117202_g37288906064498_cont_8to1_b_846_11_alg».proof.Proof.Gen.KernelIdeal.Points
import proofs.«117202_g37288906064498_cont_8to1_b_846_11_alg».proof.Proof.KernelIdealOblig0
import proofs.«117202_g37288906064498_cont_8to1_b_846_11_alg».proof.Proof.KernelIdealData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch (the first region's entry). -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- The reshapes write their two results and nothing else. -/
theorem W2_keeps (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_keeps m ρ c main_arg0 (by decide) (by decide)
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_keeps m ρ c main_arg1 (by decide) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_keeps m ρ c main_arg2 (by decide) (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_keeps m ρ c main_arg3 (by decide) (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_keeps m ρ c main_arg4 (by decide) (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_keeps m ρ c main_arg5 (by decide) (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps1_fresh : (hostOps1 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds the result array at what the second region's write-backs leave and every argument as launched. -/
theorem run : θ_run defs (onTc (τ := τ) (main (F := F))) ⟨m, fun _ => 0, ρ⟩ (fun r => ∀ c : Dev nD,
      r.2.mem ((c.tc : Thread nD τ).loc main_v3) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.Spec.lean ====
/-
  The mathematics both programs compute, stated once over the argument arrays, with no program in sight.

  A linear layer followed by batch normalisation with the batch's own statistics, an affine map and a rectifier:
  with `h r c = ∑ k, x r k * W c k` (100000 rows, 512 columns), each column's mean is `(∑ r, h r c) / n` and the
  result at row `r`, column `c` is `max (γ c · (h r c − mean c) / √(var c + ε) + β c) 0`.
  The two programs differ in how the column's variance is taken and in how the affine map is grouped:
  * ONE PASS over the rows: `var c = (∑ r, h r c²) / n − mean c²`, and the normalisation folded into one
    multiply-add `h r c · s c + (β c − mean c · s c)` with `s c = γ c · (var c + ε)^(-1/2)`;
  * TWO PASSES: `var c = (∑ r, (h r c − mean c)²) / n`, and `γ c · ((h r c − mean c) / √(var c + ε)) + β c`.
  Over the reals these agree (expand the square; `n · mean c = ∑ r, h r c`); on the extended reals the
  expansion needs every `h r c`, `γ c` and `β c` finite, which is what the precondition provides.
-/
import Idealize.ShloMosaic.PureOps.Ideal
import Idealize.ShloMosaic.Lib.ValueIdx

noncomputable section

namespace BatchNormLinear

open Idealize.ShloMosaic Idealize.ShloMosaic.ValueIdx

/-- The activations' and the result's shape, the weight's, and a per-column vector's. -/
abbrev Xs : Shape := ⟨2, ![100000, 512]⟩
abbrev Ws : Shape := ⟨2, ![512, 512]⟩
abbrev Vs : Shape := ⟨1, ![512]⟩

/-- The linear layer: row `r` of `x` against row `c` of `W`. -/
def lin (x : Xs.Idx → EReal) (W : Ws.Idx → EReal) (r : Fin 100000) (c : Fin 512) : EReal :=
  ∑ k : Fin 512, x (ix2 r k) * W (ix2 c k)

/-- The number of rows, as both programs spell it: the float 100000. -/
def nRows : EReal := Ideal.ofBits .f32 0x47C35000#32
/-- The variance's guard, as both programs spell it: the float nearest 1e-5. -/
def eps : EReal := Ideal.ofBits .f32 0x3727C5AC#32

/-- A column's sum and its sum of squares over all rows. -/
def colSum (h : Fin 100000 → Fin 512 → EReal) (c : Fin 512) : EReal := ∑ r : Fin 100000, h r c
def colSumSq (h : Fin 100000 → Fin 512 → EReal) (c : Fin 512) : EReal := ∑ r : Fin 100000, h r c * h r c
/-- A column's mean. -/
def mean (h : Fin 100000 → Fin 512 → EReal) (c : Fin 512) : EReal := Ideal.div (colSum h c) nRows

/-- A function of (row, column) as an array over the activations' index type. -/
def arr2 (f : Fin 100000 → Fin 512 → EReal) : Xs.Idx → EReal := fun i => f (i 0) (i 1)

theorem arr2_ix2 (f : Fin 100000 → Fin 512 → EReal) (r : Fin 100000) (c : Fin 512) : arr2 f (ix2 r c) = f r c := rfl

/-- ONE PASS: the variance as mean of squares less squared mean; the normalisation as one multiply-add. -/
def outOnePass (h : Fin 100000 → Fin 512 → EReal) (g b : Vs.Idx → EReal) (r : Fin 100000) (c : Fin 512) : EReal :=
  max (h r c * (g (ix1 c) * Ideal.rsqrt (Ideal.div (colSumSq h c) nRows - mean h c * mean h c + eps))
      + (b (ix1 c) - mean h c * (g (ix1 c) * Ideal.rsqrt (Ideal.div (colSumSq h c) nRows - mean h c * mean h c + eps)))) 0

/-- TWO PASSES: the variance as mean of squared deviations; centre, divide by the deviation, scale, shift. -/
def outTwoPass (h : Fin 100000 → Fin 512 → EReal) (g b : Vs.Idx → EReal) (r : Fin 100000) (c : Fin 512) : EReal :=
  max (g (ix1 c) * Ideal.div (h r c - mean h c)
        (Ideal.sqrt (Ideal.div (∑ r' : Fin 100000, (h r' c - mean h c) * (h r' c - mean h c)) nRows + eps))
      + b (ix1 c)) 0

end BatchNormLinear

end
-- ==== Proof.KernelIdealPay.lean ====
/-
  The two kernels' arithmetic read at one index, on the extended reals.

  First kernel, at (row `p` of the point's 4000, column `q`): the product is `∑ k, x p k · W q k` (a matrix product into
  a zero accumulator is the plain sum; the change of float format is the identity). The point's contribution to the
  statistics is, in row 0, the column's sum of the product down the 4000 rows; in row 1, the column's sum of its
  squares; zero in rows 2–7 (each row test is a comparison of the row's number, decided over the eight rows). A later
  point stores what the buffer held plus its contribution.
  Second kernel, at (row `p` of the point's 5000, column `q`): with `s0`, `s1` the statistics' rows 0 and 1 at `q`,
  `max (h p q · (γ q · (s1/n − (s0/n)² + ε)^(-1/2)) + (β q − (s0/n) · (γ q · (s1/n − (s0/n)² + ε)^(-1/2)))) 0`.
-/
import proofs.«117202_g37288906064498_cont_8to1_b_846_11_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«117202_g37288906064498_cont_8to1_b_846_11_alg».proof.Proof.Spec

noncomputable section

namespace Cert.KernelIdeal.HandValue

open Cert.KernelIdeal Cert.KernelIdeal.Gen Idealize.ShloMosaic Idealize.ShloMosaic.ValueIdx

/-- The zero offsets, however spelt. -/
theorem hz : (![0, 0] : Fin 2 → Nat) = fun _ => 0 := funext fun a => by fin_cases a <;> rfl

abbrev D0 : DotDims S4000x512 S512x512 S4000x512 := dot_S4000x512_S512x512_S4000x512_1_1_0_0_n_n

theorem lhs_idx (p : Fin 4000) (q : Fin 512) (k : Fin 512) :
    D0.lhsIdx (ix2 p q) ((contrEquiv1 D0 512 rfl rfl).symm k) = ix2 p k := by
  funext a; apply Fin.ext
  match a with
  | ⟨0, _⟩ => rfl
  | ⟨1, _⟩ => exact (D0.lhsIdx_val_of_single rfl _ _).trans (contrEquiv1_symm_val D0 512 rfl rfl k)

theorem rhs_idx (p : Fin 4000) (q : Fin 512) (k : Fin 512) :
    D0.rhsIdx (ix2 p q) ((contrEquiv1 D0 512 rfl rfl).symm k) = ix2 q k := by
  funext a; apply Fin.ext
  match a with
  | ⟨0, _⟩ => rfl
  | ⟨1, _⟩ => exact (D0.rhsIdx_val_of_single rfl _ _).trans (contrEquiv1_symm_val D0 512 rfl rfl k)

/-- The product at (row, column): the row of the activations against the row of the weights. -/
theorem pay1_apply (x0 : FVec Ideal S4000x512 .f32) (x1 : FVec Ideal S512x512 .f32) (p : Fin 4000) (q : Fin 512) :
    k0_pay1 (F := Ideal) x0 x1 (ix2 p q) = ∑ k : Fin 512, x0 (ix2 p k) * x1 (ix2 q k) := by
  unfold k0_pay1
  refine (Ideal.matmul_constant_zero_apply D0 none _ _ (ix2 p q)).trans ?_
  rw [← Equiv.sum_comp (contrEquiv1 D0 512 rfl rfl).symm]
  refine Finset.sum_congr rfl fun k _ => ?_
  rw [lhs_idx, rhs_idx]
  rfl

/-- The reduced column index `q` with row `p` put back is `(p, q)`. -/
theorem lift_rows {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- A sum down the 4000 rows of a block, at column `q`. -/
theorem colsum_apply (src : FVec Ideal S4000x512 .f32) (hacc : (0x00000000#32 : BitVec 32) = 0x00000000#32) (q : Fin 512) :
    multiReduction .add [0] S512 src 0x00000000#32 reduces_S4000x512_S512 (.inl rfl) hacc (ix1 q) = ∑ p : Fin 4000, src (ix2 p q) := by
  refine (Ideal.multiReduction_add_single src 0x00000000#32 reduces_S4000x512_S512 (.inl rfl) hacc (ix1 q)).trans ?_
  exact Finset.sum_congr rfl fun k _ => congrArg src (lift_rows reduces_S4000x512_S512 q k)

/-- A per-column vector cast to one row and spread over the eight rows reads, at (row, column), the vector at the column. -/
theorem rowOf_apply (R : FVec Ideal S512 .f32) (h1 : S512.ShapeCasts S1x512) (h2 : S1x512.ShapeCasts S1x512)
    (hb : S1x512.Broadcasts S8x512) (j : Fin 8) (q : Fin 512) :
    broadcastTo S8x512 (shapeCast S1x512 (shapeCast S1x512 R h1) h2) hb (ix2 j q) = R (ix1 q) :=
  (broadcastTo_1b_ab_apply _ hb j q).trans
    ((congrFun (shapeCast_self _ h2) _).trans (shapeCast_a_1a_apply R h1 0 q))

/-- The two row tests, over the eight rows. -/
theorem isRow0 : ∀ j : Fin 8, IntOp.cmpi .eq (BitVec.ofNat 32 j.val) 0#32 = if j.val = 0 then 1#1 else 0#1 := by decide
theorem isRow1 : ∀ j : Fin 8, IntOp.cmpi .eq (BitVec.ofNat 32 j.val) 1#32 = if j.val = 1 then 1#1 else 0#1 := by decide

/-- A selection on a decided test is the conditional. -/
theorem pick (c : Prop) [Decidable c] (a b : EReal) : Scalar.select (if c then 1#1 else 0#1) a b = if c then a else b := by
  split
  · exact select_one a b
  · exact select_zero a b

/-- A point's contribution to the statistics at (row `j`, column `q`): the column's sum of the product in row 0, the
    column's sum of its squares in row 1, zero in the other rows. -/
theorem pay3_apply (x0 : FVec Ideal S4000x512 .f32) (x1 : FVec Ideal S512x512 .f32) (j : Fin 8) (q : Fin 512) :
    k0_pay3 (F := Ideal) x0 x1 (ix2 j q)
      = (if j.val = 0 then ∑ p : Fin 4000, k0_pay1 (F := Ideal) x0 x1 (ix2 p q) else 0)
        + (if j.val = 1 then ∑ p : Fin 4000, k0_pay1 (F := Ideal) x0 x1 (ix2 p q) * k0_pay1 (F := Ideal) x0 x1 (ix2 p q) else 0) := by
  unfold k0_pay3
  rw [addf_apply, select_apply, select_apply]
  have c0 : cmpi .eq (iota .tc S8x512 32 [0] iota_S8x512_d0_w32) (broadcast S8x512 0#32) (ix2 j q) = if j.val = 0 then 1#1 else 0#1 :=
    (congrArg (fun w => IntOp.cmpi .eq w 0#32) (iota_single_apply .tc S8x512 32 0 iota_S8x512_d0_w32 (ix2 j q))).trans (isRow0 j)
  have c1 : cmpi .eq (iota .tc S8x512 32 [0] iota_S8x512_d0_w32) (broadcast S8x512 1#32) (ix2 j q) = if j.val = 1 then 1#1 else 0#1 :=
    (congrArg (fun w => IntOp.cmpi .eq w 1#32) (iota_single_apply .tc S8x512 32 0 iota_S8x512_d0_w32 (ix2 j q))).trans (isRow1 j)
  rw [c0, c1, pick, pick, rowOf_apply, rowOf_apply, colsum_apply, colsum_apply]
  simp only [broadcast_apply, Ideal.ofBits_def, Ideal.ofBits_zero_f32, mulf_apply]

/-- A later point's statistics: what the buffer held plus the point's contribution. -/
theorem pay4_apply (x0 : FVec Ideal S4000x512 .f32) (x1 : FVec Ideal S512x512 .f32) (xo : FVec Ideal S8x512 .f32) (i : S8x512.Idx) :
    k0_pay4 (F := Ideal) x0 x1 xo i = xo i + k0_pay3 (F := Ideal) x0 x1 i := by
  unfold k0_pay4
  rw [addf_apply, shapeCast_self]

/-- The stored product is the product: the change of format is the identity on the extended reals. -/
theorem pay2_apply (x0 : FVec Ideal S4000x512 .f32) (x1 : FVec Ideal S512x512 .f32) (i : S4000x512.Idx) :
    k0_pay2 (F := Ideal) x0 x1 i = k0_pay1 (F := Ideal) x0 x1 i := rfl

/-! ## The second kernel's payload -/

/-- Rows 0 and 1 of the statistics, cut out as one row each, at column `q`. -/
theorem row0_apply (xs : FVec Ideal S8x512 .f32) (hs : S8x512.Slices ![0, 0] S1x512) (q : Fin 512) :
    extractStridedSlice S1x512 ![0, 0] xs hs (ix2 (0 : Fin 1) q) = xs (ix2 (0 : Fin 8) q) :=
  slice2_axis0_apply 0 xs hs 0 q 0 rfl
theorem row1_apply (xs : FVec Ideal S8x512 .f32) (hs : S8x512.Slices ![1, 0] S1x512) (q : Fin 512) :
    extractStridedSlice S1x512 ![1, 0] xs hs (ix2 (0 : Fin 1) q) = xs (ix2 (1 : Fin 8) q) :=
  slice2_axis0_apply 1 xs hs 0 q 1 rfl

open BatchNormLinear in
/-- The second kernel's result at (row `p` of the block, column `q`): the one-pass normalisation with the column's
    statistics read from rows 0 and 1, `γ` and `β` from their one row. -/
theorem norm_apply (xs : FVec Ideal S8x512 .f32) (xg xb : FVec Ideal S1x512 .f32) (xh : FVec Ideal S5000x512 .bf16)
    (p : Fin 5000) (q : Fin 512) :
    k1_pay1 (F := Ideal) xs xg xb xh (ix2 p q)
      = max (xh (ix2 p q) * (xg (ix2 0 q) * Ideal.rsqrt (Ideal.div (xs (ix2 1 q)) nRows
              - Ideal.div (xs (ix2 0 q)) nRows * Ideal.div (xs (ix2 0 q)) nRows + eps))
          + (xb (ix2 0 q) - Ideal.div (xs (ix2 0 q)) nRows * (xg (ix2 0 q) * Ideal.rsqrt (Ideal.div (xs (ix2 1 q)) nRows
              - Ideal.div (xs (ix2 0 q)) nRows * Ideal.div (xs (ix2 0 q)) nRows + eps)))) 0 := by
  unfold k1_pay1
  rw [maximumf_apply, addf_apply, mulf_apply, broadcastTo_1b_ab_apply, broadcastTo_1b_ab_apply]
  simp only [mulf_apply, subf_apply, addf_apply, divf_apply, extf_apply, rsqrt, broadcast_apply, row0_apply, row1_apply,
    shapeCast_self, Ideal.rsqrt_def, Ideal.ofBits_def, Ideal.ofBits_zero_f32]
  rfl

end Cert.KernelIdeal.HandValue

end
-- ==== Proof.LibBlockSum.lean ====
/-
  A sum taken block by block is the sum over the whole range.

  Cut `0 … m·n − 1` into `m` consecutive blocks of `n`: term `p` of block `t` is number `n·t + p`, every number below
  `m·n` is met exactly once (division with remainder), so adding each block's sum over the blocks is the whole sum —
  in any commutative monoid, since only the order and grouping of the terms change.
-/
import Mathlib.Algebra.BigOperators.Fin
import Mathlib.Logic.Equiv.Fin.Basic

namespace BlockSum

/-- `∑ t < m, ∑ p < n, g (n·t + p) = ∑ r < m·n, g r`. -/
theorem sum_blocks {M : Type*} [AddCommMonoid M] (m n : ℕ) (g : ℕ → M) :
    ∑ t ∈ Finset.range m, ∑ p : Fin n, g (n * t + p.val) = ∑ r : Fin (m * n), g r.val := by
  rw [Finset.sum_range (fun t => ∑ p : Fin n, g (n * t + p.val)),
    ← Equiv.sum_comp finProdFinEquiv (fun r : Fin (m * n) => g r.val), Fintype.sum_prod_type]
  refine Finset.sum_congr rfl fun a _ => Finset.sum_congr rfl fun b _ => ?_
  rw [finProdFinEquiv_apply_val]
  exact congrArg g (Nat.add_comm _ _)

end BlockSum
-- ==== Proof.KernelIdealValue0.lean ====
/-
  What the first kernel's region leaves in its two output arrays, on the extended reals.

  THE PRODUCT. Point `t` reads rows `4000·t … 4000·t + 3999` of the activations and all of the weight, and writes back
  the linear layer at those rows; the twenty-five blocks tile the array (row `r` is in block `r / 4000`), so the array
  ends holding the linear layer `h r c = ∑ k, x r k · W c k` everywhere.
  THE STATISTICS. The block never moves and is written back once, after the last point. By induction on the point,
  row 0 of the running sums after point `n` is `∑ t ≤ n, ∑ p < 4000, h (4000·t + p) c` and row 1 the same sum of squares:
  the first point stores its contribution, each later one adds its own (adding zero changes nothing, and sums of
  extended reals may be regrouped freely). After the last point the blocks' sums are the sum over all 100000 rows.
-/
import proofs.«117202_g37288906064498_cont_8to1_b_846_11_alg».proof.Proof.KernelIdealData0
import proofs.«117202_g37288906064498_cont_8to1_b_846_11_alg».proof.Proof.KernelIdealPay
import proofs.«117202_g37288906064498_cont_8to1_b_846_11_alg».proof.Proof.Spec
import Idealize.ShloMosaic.Lib.Pipeline.Value
import proofs.«117202_g37288906064498_cont_8to1_b_846_11_alg».proof.Proof.LibBlockSum

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open BatchNormLinear

variable (V : (c : Dev nD) → (b : Ref sig .tc) → Buf (Elt Ideal) ((c : Thread nD τ).loc b))

/-- The first kernel's index maps over the grid: the activations' and the product's blocks move down the rows with the
    point; the weight's and the statistics' blocks stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Row `p` of the activations' block at point `t` is row `4000·t + p` of the array. -/
theorem blkX_apply (c : Dev nD) (t : Fin cfg0.N) (p : Fin 4000) (k : Fin 512) (r : Fin 100000) (hr : r.val = 4000 * t.val + p.val) :
    iblk0 V c 0 t (ix2 p k) = V c main_arg1 (ix2 r k) := by
  unfold iblk0
  show V c main_arg1 (((cfg0.win 0).blk t).view.emb (ix2 p k)) = V c main_arg1 (ix2 r k)
  refine congrArg _ ?_
  obtain ⟨e0, e1, -⟩ := idx0 t
  funext a; apply Fin.ext
  match a with
  | ⟨0, _⟩ => show win0_0.index t (0 : Fin 2) * 4000 + 1 * p.val = r.val; omega
  | ⟨1, _⟩ => show win0_0.index t (1 : Fin 2) * 512 + 1 * k.val = k.val; omega

/-- The weight's block at any point is the whole weight. -/
theorem blkW_apply (c : Dev nD) (t : Fin cfg0.N) (q k : Fin 512) :
    iblk0 V c 1 t (ix2 q k) = V c main_arg3 (ix2 q k) := by
  unfold iblk0
  show V c main_arg3 (((cfg0.win 1).blk t).view.emb (ix2 q k)) = V c main_arg3 (ix2 q k)
  refine congrArg _ ?_
  obtain ⟨-, -, e2, e3, -⟩ := idx0 t
  funext a; apply Fin.ext
  match a with
  | ⟨0, _⟩ => show win0_1.index t (0 : Fin 2) * 512 + 1 * q.val = q.val; omega
  | ⟨1, _⟩ => show win0_1.index t (1 : Fin 2) * 512 + 1 * k.val = k.val; omega

/-- The point's product at (row `p`, column `q`) is the linear layer at row `4000·t + p`. -/
theorem prod_apply (c : Dev nD) (t : Fin cfg0.N) (p : Fin 4000) (q : Fin 512) (r : Fin 100000) (hr : r.val = 4000 * t.val + p.val) :
    k0_pay1 (F := Ideal) (iblk0 V c 0 t) (iblk0 V c 1 t) (ix2 p q) = lin (V c main_arg1) (V c main_arg3) r q := by
  rw [pay1_apply]
  unfold lin
  exact Finset.sum_congr rfl fun k _ => by rw [blkX_apply V c t p k r hr, blkW_apply V c t q k]

/-! ## The product array after the first region -/

/-- Point `t`'s block of the product's array, at (row `p`, column `q`), is row `4000·t + p`. -/
theorem embH (t : Fin cfg0.N) (p : Fin 4000) (q : Fin 512) (r : Fin 100000) (hr : r.val = 4000 * t.val + p.val) :
    ((cfg0.win 2).blk t).view.emb (ix2 p q) = (ix2 r q : S100000x512.Idx) := by
  obtain ⟨-, -, -, -, e4, e5, -⟩ := idx0 t
  funext a; apply Fin.ext
  match a with
  | ⟨0, _⟩ => show win0_2.index t (0 : Fin 2) * 4000 + 1 * p.val = r.val; omega
  | ⟨1, _⟩ => show win0_2.index t (1 : Fin 2) * 512 + 1 * q.val = q.val; omega

theorem flushedH_at (c : Dev nD) (t : Fin cfg0.N) (p : Fin 4000) (q : Fin 512) :
    k0_pay2 (F := Ideal) (iblk0 V c 0 t) (iblk0 V c 1 t) (ix2 p q)
      = arr2 (lin (V c main_arg1) (V c main_arg3)) (((cfg0.win 2).blk t).view.emb (ix2 p q)) := by
  have hN : t.val < 25 := lt_of_lt_of_eq t.isLt (show cfg0.N = 25 from N_0)
  have hp := p.isLt
  rw [pay2_apply, embH t p q ⟨4000 * t.val + p.val, by omega⟩ rfl, arr2_ix2]
  exact prod_apply V c t p q _ rfl

/-- WHAT POINT `t` WRITES BACK of the product is block `t` of the linear layer of the argument arrays. -/
theorem flushedH_eq (c : Dev nD) (t : Fin cfg0.N) :
    (dat0 V c).flushed 2 t = ((cfg0.win 2).blk t).view.read (Elt Ideal) (arr2 (lin (V c main_arg1) (V c main_arg3))) := by
  show (cfg0.win 2).cut (grid0.coords t) ((dat0 V c).after 2 t) = _
  rw [after0_2]
  unfold outH
  rw [View.canon_unit_zero hz]
  simp only [View.ld_unit_zero (S := S4000x512) hz, View.ld_unit_zero (S := S512x512) hz]
  funext j
  obtain ⟨p, q, rfl⟩ : ∃ (p : Fin 4000) (q : Fin 512), j = ix2 p q := ⟨j 0, j 1, eq_ix2 (n0 := 4000) (n1 := 512) j⟩
  exact flushedH_at V c t p q

/-- An index of the product's array is in point `t`'s block iff each coordinate is in the block's range. -/
theorem mem_blkH (t : Fin cfg0.N) (i : S100000x512.Idx) :
    i ∈ ((cfg0.win 2).blk t).view.set ↔ ∀ a : Fin 2, win0_2.index t a * S4000x512.size a ≤ (i a).val ∧ (i a).val < win0_2.index t a * S4000x512.size a + S4000x512.size a := by
  show i ∈ ((View.whole main_v0_0).slice (win0_2.rect t)).set ↔ _
  rw [View.set_slice_whole, Rect.mem_set_unit]
  exact Iff.rfl

/-- Every row is in the block of the point `row / 4000`. -/
theorem coveredH (i : S100000x512.Idx) :
    ∃ t : Fin cfg0.N, (cfg0.win 2).flush t = true ∧ i ∈ ((cfg0.win 2).blk t).view.set := by
  have hi0 : (i 0).val < 100000 := (i 0).isLt
  have hi1 : (i 1).val < 512 := (i 1).isLt
  have hN : cfg0.N = 25 := N_0
  refine ⟨⟨(i 0).val / 4000, by rw [hN]; omega⟩, flush0_2 _, ?_⟩
  rw [mem_blkH]
  obtain ⟨-, -, -, -, e4, e5, -⟩ := idx0 ⟨(i 0).val / 4000, by rw [hN]; omega⟩
  intro a
  match a with
  | ⟨0, _⟩ =>
    show win0_2.index ⟨(i 0).val / 4000, _⟩ (0 : Fin 2) * 4000 ≤ (i 0).val ∧ (i 0).val < win0_2.index ⟨(i 0).val / 4000, _⟩ (0 : Fin 2) * 4000 + 4000
    rw [e4]; dsimp only; omega
  | ⟨1, _⟩ =>
    show win0_2.index ⟨(i 0).val / 4000, _⟩ (1 : Fin 2) * 512 ≤ (i 1).val ∧ (i 1).val < win0_2.index ⟨(i 0).val / 4000, _⟩ (1 : Fin 2) * 512 + 512
    rw [e5]; omega

/-- THE PRODUCT ARRAY after the first region: the linear layer of the argument arrays. -/
theorem finalH (c : Dev nD) : (dat0 V c).arrAt 2 cfg0.N = arr2 (lin (V c main_arg1) (V c main_arg3)) :=
  (dat0 V c).arrAt_eq_of_cover 2 _ (fun t _ => flushedH_eq V c t) coveredH

/-! ## The statistics after the first region -/

/-- The linear layer at a row NUMBER (zero past the array): what the running sums are stated over. -/
def linN (x : Xs.Idx → EReal) (W : Ws.Idx → EReal) (r : ℕ) (q : Fin 512) : EReal :=
  if h : r < 100000 then lin x W ⟨r, h⟩ q else 0

theorem prodN_apply (c : Dev nD) (t : Fin cfg0.N) (p : Fin 4000) (q : Fin 512) :
    k0_pay1 (F := Ideal) (iblk0 V c 0 t) (iblk0 V c 1 t) (ix2 p q) = linN (V c main_arg1) (V c main_arg3) (4000 * t.val + p.val) q := by
  have hN : t.val < 25 := lt_of_lt_of_eq t.isLt (show cfg0.N = 25 from N_0)
  have hp := p.isLt
  unfold linN
  rw [dif_pos (by omega)]
  exact prod_apply V c t p q ⟨4000 * t.val + p.val, by omega⟩ rfl

/-- ROW 0 after point `n`: the column's sum of the linear layer over the rows of points `0 … n`. -/
theorem stats_row0 (c : Dev nD) : ∀ (n : ℕ) (hn : n < cfg0.N) (q : Fin 512),
    statsAt V c n hn (ix2 (0 : Fin 8) q)
      = ∑ t ∈ Finset.range (n + 1), ∑ p : Fin 4000, linN (V c main_arg1) (V c main_arg3) (4000 * t + p.val) q
  | 0, hn, q => by
    show outS0 (iblk0 V c 0 ⟨0, hn⟩) (iblk0 V c 1 ⟨0, hn⟩) (ix2 (0 : Fin 8) q) = _
    unfold outS0
    rw [View.canon_unit_zero hz]
    simp only [View.ld_unit_zero (S := S4000x512) hz, View.ld_unit_zero (S := S512x512) hz]
    rw [pay3_apply, Finset.sum_range_one]
    simp only [prodN_apply V c ⟨0, hn⟩]
    simp
  | n + 1, hn, q => by
    show outS1 (iblk0 V c 0 ⟨n + 1, hn⟩) (iblk0 V c 1 ⟨n + 1, hn⟩) (statsAt V c n (Nat.lt_of_succ_lt hn)) (ix2 (0 : Fin 8) q) = _
    unfold outS1
    rw [View.canon_unit_zero hz]
    simp only [View.ld_unit_zero (S := S4000x512) hz, View.ld_unit_zero (S := S512x512) hz, View.ld_unit_zero (S := S8x512) hz]
    rw [pay4_apply, pay3_apply, stats_row0 c n (Nat.lt_of_succ_lt hn) q, Finset.sum_range_succ _ (n + 1)]
    simp only [prodN_apply V c ⟨n + 1, hn⟩]
    simp

/-- ROW 1 after point `n`: the column's sum of its squares over the same rows. -/
theorem stats_row1 (c : Dev nD) : ∀ (n : ℕ) (hn : n < cfg0.N) (q : Fin 512),
    statsAt V c n hn (ix2 (1 : Fin 8) q)
      = ∑ t ∈ Finset.range (n + 1), ∑ p : Fin 4000, (linN (V c main_arg1) (V c main_arg3) (4000 * t + p.val) q * linN (V c main_arg1) (V c main_arg3) (4000 * t + p.val) q)
  | 0, hn, q => by
    show outS0 (iblk0 V c 0 ⟨0, hn⟩) (iblk0 V c 1 ⟨0, hn⟩) (ix2 (1 : Fin 8) q) = _
    unfold outS0
    rw [View.canon_unit_zero hz]
    simp only [View.ld_unit_zero (S := S4000x512) hz, View.ld_unit_zero (S := S512x512) hz]
    rw [pay3_apply, Finset.sum_range_one]
    simp only [prodN_apply V c ⟨0, hn⟩]
    simp
  | n + 1, hn, q => by
    show outS1 (iblk0 V c 0 ⟨n + 1, hn⟩) (iblk0 V c 1 ⟨n + 1, hn⟩) (statsAt V c n (Nat.lt_of_succ_lt hn)) (ix2 (1 : Fin 8) q) = _
    unfold outS1
    rw [View.canon_unit_zero hz]
    simp only [View.ld_unit_zero (S := S4000x512) hz, View.ld_unit_zero (S := S512x512) hz, View.ld_unit_zero (S := S8x512) hz]
    rw [pay4_apply, pay3_apply, stats_row1 c n (Nat.lt_of_succ_lt hn) q, Finset.sum_range_succ _ (n + 1)]
    simp only [prodN_apply V c ⟨n + 1, hn⟩]
    simp

theorem h24 : 24 < cfg0.N := by rw [show cfg0.N = 25 from N_0]; omega

/-- The running sums depend on the position only. -/
theorem statsAt_congr (c : Dev nD) (n n' : ℕ) (h : n = n') (hn : n < cfg0.N) (hn' : n' < cfg0.N) :
    statsAt V c n hn = statsAt V c n' hn' := by subst h; rfl

-- from here on the running sums are a name: their closed forms above are what is used
attribute [local irreducible] Cert.KernelIdeal.Hand.statsAt

theorem mem_blkS (t : Fin cfg0.N) (i : S8x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v0_1).slice (win0_3.rect t)).set ↔ _
  rw [View.set_slice_whole, Rect.mem_set_unit]
  exact Iff.rfl

/-- The statistics' block at any point is the whole array. -/
theorem embS (t : Fin cfg0.N) (a : Fin 8) (b : Fin 512) :
    ((cfg0.win 3).blk t).view.emb (ix2 a b) = (ix2 a b : S8x512.Idx) := by
  obtain ⟨-, -, -, -, -, -, e6, e7⟩ := idx0 t
  funext x; apply Fin.ext
  match x with
  | ⟨0, _⟩ => show win0_3.index t (0 : Fin 2) * 8 + 1 * a.val = a.val; omega
  | ⟨1, _⟩ => show win0_3.index t (1 : Fin 2) * 512 + 1 * b.val = b.val; omega

/-- The statistics are written back at the last point only, and what is written is the running sums after it. -/
theorem flushedS_eq (c : Dev nD) (t : Fin cfg0.N) (hf : (cfg0.win 3).flush t = true) :
    (dat0 V c).flushed 3 t = ((cfg0.win 3).blk t).view.read (Elt Ideal) (statsAt V c 24 h24) := by
  have h := (flush0_3 t).mp hf
  have hN : t.val < 25 := lt_of_lt_of_eq t.isLt (show cfg0.N = 25 from N_0)
  have hval : t.val = 24 := by omega
  show (cfg0.win 3).cut (grid0.coords t) ((dat0 V c).after 3 t) = _
  rw [after0_3, statsAt_congr V c t.val 24 hval t.isLt h24]
  funext j
  obtain ⟨a, b, rfl⟩ : ∃ (a : Fin 8) (b : Fin 512), j = ix2 a b := ⟨j 0, j 1, eq_ix2 (n0 := 8) (n1 := 512) j⟩
  show statsAt V c 24 h24 (ix2 a b) = statsAt V c 24 h24 (((cfg0.win 3).blk t).view.emb (ix2 a b))
  rw [embS]

theorem coveredS (i : S8x512.Idx) :
    ∃ t : Fin cfg0.N, (cfg0.win 3).flush t = true ∧ i ∈ ((cfg0.win 3).blk t).view.set := by
  have hi0 : (i 0).val < 8 := (i 0).isLt
  have hi1 : (i 1).val < 512 := (i 1).isLt
  refine ⟨⟨24, h24⟩, (flush0_3 _).mpr rfl, ?_⟩
  rw [mem_blkS]
  obtain ⟨-, -, -, -, -, -, e6, e7⟩ := idx0 ⟨24, h24⟩
  intro a
  match a with
  | ⟨0, _⟩ =>
    show win0_3.index ⟨24, h24⟩ (0 : Fin 2) * 8 ≤ (i 0).val ∧ (i 0).val < win0_3.index ⟨24, h24⟩ (0 : Fin 2) * 8 + 8
    rw [e6]; omega
  | ⟨1, _⟩ =>
    show win0_3.index ⟨24, h24⟩ (1 : Fin 2) * 512 ≤ (i 1).val ∧ (i 1).val < win0_3.index ⟨24, h24⟩ (1 : Fin 2) * 512 + 512
    rw [e7]; omega

/-- THE STATISTICS ARRAY after the first region: the running sums after the last point. -/
theorem finalS (c : Dev nD) : (dat0 V c).arrAt 3 cfg0.N = statsAt V c 24 h24 :=
  (dat0 V c).arrAt_eq_of_cover 3 _ (fun t hf => flushedS_eq V c t hf) coveredS

theorem linN_val (x : Xs.Idx → EReal) (W : Ws.Idx → EReal) (r : Fin 100000) (q : Fin 512) : linN x W r.val q = lin x W r q := by
  unfold linN; rw [dif_pos r.isLt]

/-- Row 0 of the statistics is each column's sum of the linear layer over all 100000 rows (25 points of 4000), -/
theorem total0 (c : Dev nD) (q : Fin 512) :
    statsAt V c 24 h24 (ix2 (0 : Fin 8) q) = colSum (lin (V c main_arg1) (V c main_arg3)) q := by
  rw [stats_row0 V c 24 h24 q, BlockSum.sum_blocks 25 4000 (fun r => linN (V c main_arg1) (V c main_arg3) r q)]
  unfold colSum
  show ∑ r : Fin 100000, linN (V c main_arg1) (V c main_arg3) r.val q = _
  exact Finset.sum_congr rfl fun r _ => linN_val _ _ r q

/-- and row 1 each column's sum of its squares. -/
theorem total1 (c : Dev nD) (q : Fin 512) :
    statsAt V c 24 h24 (ix2 (1 : Fin 8) q) = colSumSq (lin (V c main_arg1) (V c main_arg3)) q := by
  rw [stats_row1 V c 24 h24 q,
    BlockSum.sum_blocks 25 4000 (fun r => linN (V c main_arg1) (V c main_arg3) r q * linN (V c main_arg1) (V c main_arg3) r q)]
  unfold colSumSq
  show ∑ r : Fin 100000, linN (V c main_arg1) (V c main_arg3) r.val q * linN (V c main_arg1) (V c main_arg3) r.val q = _
  exact Finset.sum_congr rfl fun r _ => by rw [linN_val]

end Cert.KernelIdeal.HandValue

end
-- ==== Proof.KernelIdealValue1.lean ====
/-
  What the second kernel's region leaves in the result array, on the extended reals.

  Suppose the region finds the product array holding `h`, rows 0 and 1 of the statistics holding each column's sum of
  `h` and of `h²`, and the two one-row arrays holding `γ` and `β`. Point `t` reads rows `5000·t … 5000·t + 4999` of `h`
  and all of the other three, and writes back the one-pass normalisation at those rows; the twenty blocks tile the
  array (row `r` is in block `r / 5000`), so the array ends holding the one-pass normalisation of `h` everywhere.
-/
import proofs.«117202_g37288906064498_cont_8to1_b_846_11_alg».proof.Proof.KernelIdealData1
import proofs.«117202_g37288906064498_cont_8to1_b_846_11_alg».proof.Proof.KernelIdealPay
import proofs.«117202_g37288906064498_cont_8to1_b_846_11_alg».proof.Proof.Spec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open BatchNormLinear

variable (V : (c : Dev nD) → (b : Ref sig .tc) → Buf (Elt Ideal) ((c : Thread nD τ).loc b))

/-- The second kernel's index maps over the grid: the product's and the result's blocks move down the rows with the
    point; the statistics', `γ`'s and `β`'s blocks stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blkH1_apply (c : Dev nD) (t : Fin cfg1.N) (p : Fin 5000) (q : Fin 512) (r : Fin 100000) (hr : r.val = 5000 * t.val + p.val) :
    iblk1 V c 0 t (ix2 p q) = V c main_v0_0 (ix2 r q) := by
  unfold iblk1
  show V c main_v0_0 (((cfg1.win 0).blk t).view.emb (ix2 p q)) = V c main_v0_0 (ix2 r q)
  refine congrArg _ ?_
  obtain ⟨e0, e1, -⟩ := idx1 t
  funext a; apply Fin.ext
  match a with
  | ⟨0, _⟩ => show win1_0.index t (0 : Fin 2) * 5000 + 1 * p.val = r.val; omega
  | ⟨1, _⟩ => show win1_0.index t (1 : Fin 2) * 512 + 1 * q.val = q.val; omega

theorem blkS1_apply (c : Dev nD) (t : Fin cfg1.N) (j : Fin 8) (q : Fin 512) :
    iblk1 V c 1 t (ix2 j q) = V c main_v0_1 (ix2 j q) := by
  unfold iblk1
  show V c main_v0_1 (((cfg1.win 1).blk t).view.emb (ix2 j q)) = V c main_v0_1 (ix2 j q)
  refine congrArg _ ?_
  obtain ⟨-, -, e2, e3, -⟩ := idx1 t
  funext a; apply Fin.ext
  match a with
  | ⟨0, _⟩ => show win1_1.index t (0 : Fin 2) * 8 + 1 * j.val = j.val; omega
  | ⟨1, _⟩ => show win1_1.index t (1 : Fin 2) * 512 + 1 * q.val = q.val; omega

theorem blkG1_apply (c : Dev nD) (t : Fin cfg1.N) (u : Fin 1) (q : Fin 512) :
    iblk1 V c 2 t (ix2 u q) = V c main_v1 (ix2 u q) := by
  unfold iblk1
  show V c main_v1 (((cfg1.win 2).blk t).view.emb (ix2 u q)) = V c main_v1 (ix2 u q)
  refine congrArg _ ?_
  obtain ⟨-, -, -, -, e4, e5, -⟩ := idx1 t
  funext a; apply Fin.ext
  match a with
  | ⟨0, _⟩ => show win1_2.index t (0 : Fin 2) * 1 + 1 * u.val = u.val; omega
  | ⟨1, _⟩ => show win1_2.index t (1 : Fin 2) * 512 + 1 * q.val = q.val; omega

theorem blkB1_apply (c : Dev nD) (t : Fin cfg1.N) (u : Fin 1) (q : Fin 512) :
    iblk1 V c 3 t (ix2 u q) = V c main_v2 (ix2 u q) := by
  unfold iblk1
  show V c main_v2 (((cfg1.win 3).blk t).view.emb (ix2 u q)) = V c main_v2 (ix2 u q)
  refine congrArg _ ?_
  obtain ⟨-, -, -, -, -, -, e6, e7, -⟩ := idx1 t
  funext a; apply Fin.ext
  match a with
  | ⟨0, _⟩ => show win1_3.index t (0 : Fin 2) * 1 + 1 * u.val = u.val; omega
  | ⟨1, _⟩ => show win1_3.index t (1 : Fin 2) * 512 + 1 * q.val = q.val; omega

/-- Point `t`'s block of the result array, at (row `p`, column `q`), is row `5000·t + p`. -/
theorem embO (t : Fin cfg1.N) (p : Fin 5000) (q : Fin 512) (r : Fin 100000) (hr : r.val = 5000 * t.val + p.val) :
    ((cfg1.win 4).blk t).view.emb (ix2 p q) = (ix2 r q : S100000x512.Idx) := by
  obtain ⟨-, -, -, -, -, -, -, -, e8, e9⟩ := idx1 t
  funext a; apply Fin.ext
  match a with
  | ⟨0, _⟩ => show win1_4.index t (0 : Fin 2) * 5000 + 1 * p.val = r.val; omega
  | ⟨1, _⟩ => show win1_4.index t (1 : Fin 2) * 512 + 1 * q.val = q.val; omega

theorem mem_blkO (t : Fin cfg1.N) (i : S100000x512.Idx) :
    i ∈ ((cfg1.win 4).blk t).view.set ↔ ∀ a : Fin 2, win1_4.index t a * S5000x512.size a ≤ (i a).val ∧ (i a).val < win1_4.index t a * S5000x512.size a + S5000x512.size a := by
  show i ∈ ((View.whole main_v3).slice (win1_4.rect t)).set ↔ _
  rw [View.set_slice_whole, Rect.mem_set_unit]
  exact Iff.rfl

/-- Every row is in the block of the point `row / 5000`. -/
theorem coveredO (i : S100000x512.Idx) :
    ∃ t : Fin cfg1.N, (cfg1.win 4).flush t = true ∧ i ∈ ((cfg1.win 4).blk t).view.set := by
  have hi0 : (i 0).val < 100000 := (i 0).isLt
  have hi1 : (i 1).val < 512 := (i 1).isLt
  have hN : cfg1.N = 20 := N_1
  refine ⟨⟨(i 0).val / 5000, by rw [hN]; omega⟩, flush1_4 _, ?_⟩
  rw [mem_blkO]
  obtain ⟨-, -, -, -, -, -, -, -, e8, e9⟩ := idx1 ⟨(i 0).val / 5000, by rw [hN]; omega⟩
  intro a
  match a with
  | ⟨0, _⟩ =>
    show win1_4.index ⟨(i 0).val / 5000, _⟩ (0 : Fin 2) * 5000 ≤ (i 0).val ∧ (i 0).val < win1_4.index ⟨(i 0).val / 5000, _⟩ (0 : Fin 2) * 5000 + 5000
    rw [e8]; dsimp only; omega
  | ⟨1, _⟩ =>
    show win1_4.index ⟨(i 0).val / 5000, _⟩ (1 : Fin 2) * 512 ≤ (i 1).val ∧ (i 1).val < win1_4.index ⟨(i 0).val / 5000, _⟩ (1 : Fin 2) * 512 + 512
    rw [e9]; omega

section Result

variable (hfun : Fin 100000 → Fin 512 → EReal) (g b : Vs.Idx → EReal) (c : Dev nD)
  (hH : ∀ (r : Fin 100000) (q : Fin 512), V c main_v0_0 (ix2 r q) = hfun r q)
  (hS0 : ∀ q : Fin 512, V c main_v0_1 (ix2 (0 : Fin 8) q) = colSum hfun q)
  (hS1 : ∀ q : Fin 512, V c main_v0_1 (ix2 (1 : Fin 8) q) = colSumSq hfun q)
  (hG : ∀ q : Fin 512, V c main_v1 (ix2 (0 : Fin 1) q) = g (ix1 q))
  (hB : ∀ q : Fin 512, V c main_v2 (ix2 (0 : Fin 1) q) = b (ix1 q))

include hH hS0 hS1 hG hB in
theorem flushedO_at (t : Fin cfg1.N) (p : Fin 5000) (q : Fin 512) :
    k1_pay1 (F := Ideal) (iblk1 V c 1 t) (iblk1 V c 2 t) (iblk1 V c 3 t) (iblk1 V c 0 t) (ix2 p q)
      = arr2 (outOnePass hfun g b) (((cfg1.win 4).blk t).view.emb (ix2 p q)) := by
  have hN : t.val < 20 := lt_of_lt_of_eq t.isLt (show cfg1.N = 20 from N_1)
  have hp := p.isLt
  rw [norm_apply, embO t p q ⟨5000 * t.val + p.val, by omega⟩ rfl, arr2_ix2,
    blkH1_apply V c t p q ⟨5000 * t.val + p.val, by omega⟩ rfl]
  simp only [blkS1_apply V c t, blkG1_apply V c t, blkB1_apply V c t, hH, hS0, hS1, hG, hB]
  rfl

include hH hS0 hS1 hG hB in
/-- WHAT POINT `t` WRITES BACK is block `t` of the one-pass normalisation. -/
theorem flushedO_eq (t : Fin cfg1.N) :
    (dat1 V c).flushed 4 t = ((cfg1.win 4).blk t).view.read (Elt Ideal) (arr2 (outOnePass hfun g b)) := by
  show (cfg1.win 4).cut (grid1.coords t) ((dat1 V c).after 4 t) = _
  rw [after1_4]
  unfold outO
  rw [View.canon_unit_zero hz]
  simp only [View.ld_unit_zero (S := S5000x512) hz, View.ld_unit_zero (S := S8x512) hz, View.ld_unit_zero (S := S1x512) hz]
  funext j
  obtain ⟨p, q, rfl⟩ : ∃ (p : Fin 5000) (q : Fin 512), j = ix2 p q := ⟨j 0, j 1, eq_ix2 (n0 := 5000) (n1 := 512) j⟩
  exact flushedO_at V hfun g b c hH hS0 hS1 hG hB t p q

include hH hS0 hS1 hG hB in
/-- THE RESULT ARRAY after the second region: the one-pass normalisation of what it found. -/
theorem finalO : (dat1 V c).arrAt 4 cfg1.N = arr2 (outOnePass hfun g b) :=
  (dat1 V c).arrAt_eq_of_cover 4 _ (fun t _ => flushedO_eq V hfun g b c hH hS0 hS1 hG hB t) coveredO

end Result

end Cert.KernelIdeal.HandValue

end
-- ==== Proof.KernelIdealValue.lean ====
/-
  The idealized kernel's run, with its result array as one function of the argument arrays.

  The second region finds: the product array at the linear layer (the first region's write-backs; the reshapes do not
  touch it), rows 0 and 1 of the statistics at each column's sum and sum of squares of the linear layer, and the two
  one-row arrays at `γ` and `β` (a reshape of a vector to one row reads the vector at the column). So it leaves the
  one-pass batch normalisation of the linear layer of the arguments, and the arguments end as launched.
-/
import proofs.«117202_g37288906064498_cont_8to1_b_846_11_alg».proof.Proof.KernelIdealRun
import proofs.«117202_g37288906064498_cont_8to1_b_846_11_alg».proof.Proof.KernelIdealValue0
import proofs.«117202_g37288906064498_cont_8to1_b_846_11_alg».proof.Proof.KernelIdealValue1

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open BatchNormLinear

variable (m : (ℓ : Loc nD τ sig) → Buf (Elt Ideal) ℓ) (ρ : Dev nD → PrngReg)

/-! ## What the second region finds -/

theorem found_h (c : Dev nD) (r : Fin 100000) (q : Fin 512) :
    V2 m ρ c main_v0_0 (ix2 r q) = lin (V0 m ρ c main_arg1) (V0 m ρ c main_arg3) r q := by
  have e : V2 m ρ c main_v0_0 = arr2 (lin (V0 m ρ c main_arg1) (V0 m ρ c main_arg3)) :=
    (W2_keeps m ρ c main_v0_0 (by decide) (by decide)).trans ((W1_arr m ρ c 2).trans (finalH (V0 m ρ) c))
  rw [e, arr2_ix2]

theorem found_stats (c : Dev nD) : V2 m ρ c main_v0_1 = statsAt (V0 m ρ) c 24 h24 :=
  (W2_keeps m ρ c main_v0_1 (by decide) (by decide)).trans ((W1_arr m ρ c 3).trans (finalS (V0 m ρ) c))

theorem found_s0 (c : Dev nD) (q : Fin 512) :
    V2 m ρ c main_v0_1 (ix2 (0 : Fin 8) q) = colSum (lin (V0 m ρ c main_arg1) (V0 m ρ c main_arg3)) q := by
  rw [found_stats m ρ c]; exact total0 (V0 m ρ) c q

theorem found_s1 (c : Dev nD) (q : Fin 512) :
    V2 m ρ c main_v0_1 (ix2 (1 : Fin 8) q) = colSumSq (lin (V0 m ρ c main_arg1) (V0 m ρ c main_arg3)) q := by
  rw [found_stats m ρ c]; exact total1 (V0 m ρ) c q

theorem found_g (c : Dev nD) (q : Fin 512) :
    V2 m ρ c main_v1 (ix2 (0 : Fin 1) q) = V0 m ρ c main_arg4 (ix1 q) := by
  have e : (V2 m ρ c main_v1 : S1x512.Idx → EReal)
      = shapeCast S1x512 (W1 m ρ c (Proc.devRef .tc main_arg4) : S512.Idx → EReal) shapeCasts_S512_S1x512 := by
    show StableHlo.after hostOps1 (W1 m ρ c) (Proc.devRef .tc main_v1) = _
    after_results
    rfl
  rw [e, shapeCast_a_1a_apply, W1_of_ne m ρ c main_arg4 (by decide)]

theorem found_b (c : Dev nD) (q : Fin 512) :
    V2 m ρ c main_v2 (ix2 (0 : Fin 1) q) = V0 m ρ c main_arg5 (ix1 q) := by
  have e : (V2 m ρ c main_v2 : S1x512.Idx → EReal)
      = shapeCast S1x512 (W1 m ρ c (Proc.devRef .tc main_arg5) : S512.Idx → EReal) shapeCasts_S512_S1x512 := by
    show StableHlo.after hostOps1 (W1 m ρ c) (Proc.devRef .tc main_v2) = _
    after_results
    rfl
  rw [e, shapeCast_a_1a_apply, W1_of_ne m ρ c main_arg5 (by decide)]

/-! ## The run, read -/

/-- The result array after the run: the one-pass normalisation of the linear layer of the arguments. -/
theorem result (c : Dev nD) :
    (dat1 (V2 m ρ) c).arrAt 4 cfg1.N
      = arr2 (outOnePass (lin (m ((c.tc : Thread nD τ).loc main_arg1)) (m ((c.tc : Thread nD τ).loc main_arg3)))
          (m ((c.tc : Thread nD τ).loc main_arg4)) (m ((c.tc : Thread nD τ).loc main_arg5))) :=
  finalO (V2 m ρ) _ _ _ c (found_h m ρ c) (found_s0 m ρ c) (found_s1 m ρ c) (found_g m ρ c) (found_b m ρ c)

/-- THE RUN of the idealized kernel: it terminates, nothing faulting; the result array ends at the one-pass
    normalisation of the linear layer of the arguments, and every argument as launched. -/
theorem run : θ_run (defs (F := Ideal)) (onTc (τ := τ) (main (F := Ideal))) ⟨m, fun _ => 0, ρ⟩ (fun r => ∀ c : Dev nD,
      r.2.mem ((c.tc : Thread nD τ).loc main_v3)
        = arr2 (outOnePass (lin (m ((c.tc : Thread nD τ).loc main_arg1)) (m ((c.tc : Thread nD τ).loc main_arg3)))
            (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (result m ρ c), (h c).2⟩)
    (Cert.KernelIdeal.Hand.run (F := Ideal) m ρ)

end Cert.KernelIdeal.HandValue

end
-- ==== Proof.RefTerm.lean ====
/-
  The reference's value as one pure term of its four float arguments: the operations of the reference program
  composed in program order, with each outlined function's body in the place of its call. Stated for any float
  values; the run of the program ends with the result buffer at this term, and at the extended reals the term is
  the two-pass batch normalisation of the linear layer.
-/
import proofs.«117202_g37288906064498_cont_8to1_b_846_11_alg».proof.Proof.Gen.ReferenceIdeal

noncomputable section

namespace Cert.ReferenceIdeal.RefValue

open Cert.ReferenceIdeal Cert.ReferenceIdeal.Gen Idealize.ShloMosaic

variable {F : FTy → Type} [FloatOps F]

/-- The scalar constants the program spells: zero, the row count, the variance's guard, and the not-a-number
    the variance would take were there no rows. -/
def cZero : FVec F S_ .f32 := constant S_ .f32 0x00000000#32
def cRows : FVec F S_ .f32 := constant S_ .f32 0x47C35000#32
def cEps : FVec F S_ .f32 := constant S_ .f32 0x3727C5AC#32
def cNan : FVec F S_ .f32 := constant S_ .f32 0x7FC00000#32

/-- The linear layer: the activations against the transposed weight. -/
def refLin (x : FVec F S100000x512 .f32) (W : FVec F S512x512 .f32) : FVec F S100000x512 .f32 :=
  Host.dotGeneral dot_S100000x512_S512x512_S100000x512_1_0_0_1_n_n none x
    (transpose S512x512 [1, 0] W transposes_S512x512_S512x512_1_0)

/-- A column vector's sum over the rows. -/
def refColSum (h : FVec F S100000x512 .f32) : FVec F S512 .f32 :=
  Host.reduceAdd h (cZero (F := F)) reducesTo_S100000x512_S512_d0 h_S_

/-- The columns' means, as the main function takes them: the sums over the row count broadcast along the columns. -/
def refMean (h : FVec F S100000x512 .f32) : FVec F S512 .f32 :=
  Host.divf (refColSum h) (broadcastInDim S512 ![] bcast_S_S512 (cRows (F := F)))

/-- A per-column vector as a full array: a unit row axis first, then every row. -/
def refRows {α : Type} (v : S512.Idx → α) : S100000x512.Idx → α :=
  broadcastInDim S100000x512 ![0, 1] bcast_S1x512_S100000x512_0_1 (broadcastInDim S1x512 ![1] bcast_S512_S1x512_1 v)

/-- The deviations from the mean inside the variance function, which takes its own mean with the row axis kept. -/
def refVarDev (h : FVec F S100000x512 .f32) : FVec F S100000x512 .f32 :=
  subf h (broadcastInDim S100000x512 ![0, 1] bcast_S1x512_S100000x512_0_1
    (Host.divf (broadcastInDim S1x512 ![1] bcast_S512_S1x512_1 (refColSum h))
      (broadcastInDim S1x512 ![] bcast_S_S1x512 (cRows (F := F)))))

/-- The variance function's divisor: the row count less the correction, the integer zero converted. -/
def refVarDen : FVec F S_ .f32 :=
  subf (cRows (F := F)) (sitofp .f32 (constantI S_ 32 0#32))

/-- The columns' variances: the sum of the squared deviations over the divisor where the divisor is positive, and
    the not-a-number otherwise. -/
def refVar (h : FVec F S100000x512 .f32) : FVec F S512 .f32 :=
  select (broadcastInDim S512 ![] bcast_S_S512 (cmpf .ogt (refVarDen (F := F)) (cZero (F := F))))
    (Host.divf (Host.reduceAdd (mulf (refVarDev h) (refVarDev h)) (cZero (F := F)) reducesTo_S100000x512_S512_d0 h_S_)
      (broadcastInDim S512 ![] bcast_S_S512 (refVarDen (F := F))))
    (broadcastInDim S512 ![] bcast_S_S512 (id (cNan (F := F))))

/-- The normalised, scaled and shifted activations, before the rectifier. -/
def refAffine (h : FVec F S100000x512 .f32) (g b : FVec F S512 .f32) : FVec F S100000x512 .f32 :=
  addf (mulf (refRows g)
      (Host.divf (subf h (refRows (refMean h)))
        (refRows (Host.sqrt (addf (refVar h) (broadcastInDim S512 ![] bcast_S_S512 (cEps (F := F))))))))
    (refRows b)

/-- The reference's result: the rectifier of the above, as the maximum with the zero array. -/
def refOut (h : FVec F S100000x512 .f32) (g b : FVec F S512 .f32) : FVec F S100000x512 .f32 :=
  maximumf (refAffine h g b) (broadcastInDim S100000x512 ![] bcast_S_S100000x512 (cZero (F := F)))

/-- The reference's result as a term of the activations, the weight, the scale and the shift. -/
def refTerm (x : FVec F S100000x512 .f32) (W : FVec F S512x512 .f32) (g b : FVec F S512 .f32) : FVec F S100000x512 .f32 :=
  refOut (refLin x W) g b

end Cert.ReferenceIdeal.RefValue

end
-- ==== Proof.RefRun.lean ====
/-
  The reference program's run. Its main function is a straight line of forty-nine host operations once the three
  outlined functions (the variance, the selection inside it, the rectifier) are read in the place of their calls:
  every weakly fair execution terminates with the result buffer at the operations' composed term of the launch
  contents of the four float arguments, and with every argument unchanged.
-/
import proofs.«117202_g37288906064498_cont_8to1_b_846_11_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The main function's operations in order, the calls unfolded: eight of its own (the transpose, the product,
    the column sums, the means, the integer zero); the variance function's nineteen into the buffers of its call;
    the selection's three into the buffers of the call nested there; sixteen more of its own (centre, guard, root,
    divide, scale, shift); the rectifier's three. -/
abbrev ops : List (HloOp τ sig (Elt F)) :=
  [ unary main_arg3 main_v0 ((transpose S512x512 [1, 0] · transposes_S512x512_S512x512_1_0) : (⟨S512x512, .f32⟩ : BufTy).Contents (Elt F) → (⟨S512x512, .f32⟩ : BufTy).Contents (Elt F)),
    binary main_arg1 main_v0 main_v1 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    nullary main_cst (constant S_ .f32 0x00000000#32),
    binary main_v1 main_cst main_v2 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    nullary main_cst_0 (constant S_ .f32 0x47C35000#32),
    unary main_cst_0 main_v3 (broadcastInDim S512 ![] bcast_S_S512 : (⟨S_, .f32⟩ : BufTy).Contents (Elt F) → (⟨S512, .f32⟩ : BufTy).Contents (Elt F)),
    binary main_v2 main_v3 main_v4 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary main_call0.cst (constant S_ .f32 0x00000000#32),
    TRef.binary (.of main_v1) main_call0.cst main_call0.v0 (fun x v => Host.reduceAdd x v reducesTo_S100000x512_S512_d0 h_S_),
    TRef.unary main_call0.v0 main_call0.v1 (broadcastInDim S1x512 ![1] bcast_S512_S1x512_1),
    TRef.nullary main_call0.cst_0 (constant S_ .f32 0x47C35000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S100000x512 ![0, 1] bcast_S1x512_S100000x512_0_1),
    TRef.binary (.of main_v1) main_call0.v4 main_call0.v5 subf,
    TRef.binary main_call0.v5 main_call0.v5 main_call0.v6 mulf,
    TRef.unary (.of main_c) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v4 main_v6 (broadcastInDim S1x512 ![1] bcast_S512_S1x512_1 : (⟨S512, .f32⟩ : BufTy).Contents (Elt F) → (⟨S1x512, .f32⟩ : BufTy).Contents (Elt F)),
    unary main_v6 main_v7 (broadcastInDim S100000x512 ![0, 1] bcast_S1x512_S100000x512_0_1 : (⟨S1x512, .f32⟩ : BufTy).Contents (Elt F) → (⟨S100000x512, .f32⟩ : BufTy).Contents (Elt F)),
    binary main_v1 main_v7 main_v8 (subf : (⟨S100000x512, .f32⟩ : BufTy).Contents (Elt F) → (⟨S100000x512, .f32⟩ : BufTy).Contents (Elt F) → (⟨S100000x512, .f32⟩ : BufTy).Contents (Elt F)),
    nullary main_cst_1 (constant S_ .f32 0x3727C5AC#32),
    unary main_cst_1 main_v9 (broadcastInDim S512 ![] bcast_S_S512 : (⟨S_, .f32⟩ : BufTy).Contents (Elt F) → (⟨S512, .f32⟩ : BufTy).Contents (Elt F)),
    binary main_v5 main_v9 main_v10 (addf : (⟨S512, .f32⟩ : BufTy).Contents (Elt F) → (⟨S512, .f32⟩ : BufTy).Contents (Elt F) → (⟨S512, .f32⟩ : BufTy).Contents (Elt F)),
    unary main_v10 main_v11 (Host.sqrt : (⟨S512, .f32⟩ : BufTy).Contents (Elt F) → (⟨S512, .f32⟩ : BufTy).Contents (Elt F)),
    unary main_v11 main_v12 (broadcastInDim S1x512 ![1] bcast_S512_S1x512_1 : (⟨S512, .f32⟩ : BufTy).Contents (Elt F) → (⟨S1x512, .f32⟩ : BufTy).Contents (Elt F)),
    unary main_v12 main_v13 (broadcastInDim S100000x512 ![0, 1] bcast_S1x512_S100000x512_0_1 : (⟨S1x512, .f32⟩ : BufTy).Contents (Elt F) → (⟨S100000x512, .f32⟩ : BufTy).Contents (Elt F)),
    binary main_v8 main_v13 main_v14 (Host.divf : (⟨S100000x512, .f32⟩ : BufTy).Contents (Elt F) → (⟨S100000x512, .f32⟩ : BufTy).Contents (Elt F) → (⟨S100000x512, .f32⟩ : BufTy).Contents (Elt F)),
    unary main_arg4 main_v15 (broadcastInDim S1x512 ![1] bcast_S512_S1x512_1 : (⟨S512, .f32⟩ : BufTy).Contents (Elt F) → (⟨S1x512, .f32⟩ : BufTy).Contents (Elt F)),
    unary main_v15 main_v16 (broadcastInDim S100000x512 ![0, 1] bcast_S1x512_S100000x512_0_1 : (⟨S1x512, .f32⟩ : BufTy).Contents (Elt F) → (⟨S100000x512, .f32⟩ : BufTy).Contents (Elt F)),
    binary main_v16 main_v14 main_v17 (mulf : (⟨S100000x512, .f32⟩ : BufTy).Contents (Elt F) → (⟨S100000x512, .f32⟩ : BufTy).Contents (Elt F) → (⟨S100000x512, .f32⟩ : BufTy).Contents (Elt F)),
    unary main_arg5 main_v18 (broadcastInDim S1x512 ![1] bcast_S512_S1x512_1 : (⟨S512, .f32⟩ : BufTy).Contents (Elt F) → (⟨S1x512, .f32⟩ : BufTy).Contents (Elt F)),
    unary main_v18 main_v19 (broadcastInDim S100000x512 ![0, 1] bcast_S1x512_S100000x512_0_1 : (⟨S1x512, .f32⟩ : BufTy).Contents (Elt F) → (⟨S100000x512, .f32⟩ : BufTy).Contents (Elt F)),
    binary main_v17 main_v19 main_v20 (addf : (⟨S100000x512, .f32⟩ : BufTy).Contents (Elt F) → (⟨S100000x512, .f32⟩ : BufTy).Contents (Elt F) → (⟨S100000x512, .f32⟩ : BufTy).Contents (Elt F)),
    TRef.nullary main_call1.cst (constant S_ .f32 0x00000000#32),
    TRef.unary main_call1.cst main_call1.v0 (broadcastInDim S100000x512 ![] bcast_S_S100000x512),
    TRef.binary (.of main_v20) main_call1.v0 main_call1.v1 maximumf ]

-- forty-nine binds re-associated: the rewrite under the chain recurses once per statement
set_option maxRecDepth 1024 in
/-- The main function is that straight line: the functions' definitions unfolded at their calls and the buffer
    records at their fields, both sides are one chain of host steps once sequencing is reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    nullary_bufs_sub .., unary_bufs_sub .., binary_bufs_sub ..⟩

/-- The fold of the operations at the result buffer is the composed term of the four float arguments: each
    operation's result at its own buffer is its function of its operands' contents, and every other buffer keeps what
    it held. -/
theorem out_eq (V : Valuation τ sig (Elt F)) :
    after ops V (main_v21 : DevRef τ sig)
      = refTerm (F := F) (V (main_arg1 : DevRef τ sig)) (V (main_arg3 : DevRef τ sig)) (V (main_arg4 : DevRef τ sig))
          (V (main_arg5 : DevRef τ sig)) := by
  after_results_simp
  rfl

/-- On every device, for any float values, from any memory with zero counters: every weakly fair execution of the main
    function terminates with the result buffer at the composed term of the four float arguments' launch contents, and
    with the six arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v21)
          = refTerm (F := F) (m ((c.tc : Thread nD τ).loc main_arg1)) (m ((c.tc : Thread nD τ).loc main_arg3))
              (m ((c.tc : Thread nD τ).loc main_arg4)) (m ((c.tc : Thread nD τ).loc main_arg5))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c => ⟨(h c main_v21).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefValue

end
-- ==== Proof.RefValue.lean ====
/-
  The reference's term at the extended reals is the two-pass batch normalisation of the linear layer, read index
  by index. The product against the transposed weight is the sum over the contracted coordinate of the rows'
  products; each reduction over the rows is zero plus the sum over the row coordinate; the broadcasts read their
  operand at the column; the variance function's divisor is the row count less the converted integer zero, which
  is the row count, and it is positive, so the selection takes the quotient and never the not-a-number constant.
-/
import proofs.«117202_g37288906064498_cont_8to1_b_846_11_alg».proof.Proof.RefTerm
import proofs.«117202_g37288906064498_cont_8to1_b_846_11_alg».proof.Proof.Spec
import Idealize.ShloMosaic.Lib.IdealHost
import Idealize.ShloMosaic.Lib.ValueLayout
import Idealize.ShloMosaic.Lib.KernelVsHost

noncomputable section

namespace Cert.ReferenceIdeal.RefValue

open Cert.ReferenceIdeal Cert.ReferenceIdeal.Gen Idealize.ShloMosaic Idealize.ShloMosaic.ValueIdx

/-! ## The linear layer -/

/-- The product's dimension numbers: the activations' axis 1 against the transposed weight's axis 0. -/
abbrev D := dot_S100000x512_S512x512_S100000x512_1_0_0_1_n_n

/-- The contraction's index is its one coordinate, below 512. -/
def cE : D.contr.Idx ≃ Fin 512 := contrEquiv1 D 512 rfl rfl

/-- At result index (r, c) and contraction coordinate k the left operand is read at (r, k) … -/
theorem lhs_eq (r : Fin 100000) (c : Fin 512) (k : Fin 512) :
    D.lhsIdx (ix2 r c) (cE.symm k) = ix2 r k := by
  funext a
  match a with
  | ⟨0, _⟩ =>
    apply Fin.ext
    simp [DotDims.lhsIdx, D, dot_S100000x512_S512x512_S100000x512_1_0_0_1_n_n]
    rfl
  | ⟨1, _⟩ =>
    apply Fin.ext
    exact (D.lhsIdx_val_of_single (cl := 1) rfl (ix2 r c) (cE.symm k)).trans (contrEquiv1_symm_val D 512 rfl rfl k)

/-- … and the right operand at (k, c). -/
theorem rhs_eq (r : Fin 100000) (c : Fin 512) (k : Fin 512) :
    D.rhsIdx (ix2 r c) (cE.symm k) = ix2 k c := by
  funext a
  match a with
  | ⟨0, _⟩ =>
    apply Fin.ext
    exact (D.rhsIdx_val_of_single (cr := 0) rfl (ix2 r c) (cE.symm k)).trans (contrEquiv1_symm_val D 512 rfl rfl k)
  | ⟨1, _⟩ =>
    apply Fin.ext
    simp [DotDims.rhsIdx, D, dot_S100000x512_S512x512_S100000x512_1_0_0_1_n_n]
    rfl

/-- The product against the transposed weight, at (r, c): row r of the activations against row c of the weight. -/
theorem refLin_apply (x : FVec Ideal S100000x512 .f32) (W : FVec Ideal S512x512 .f32) (r : Fin 100000) (c : Fin 512) :
    refLin (F := Ideal) x W (ix2 r c) = BatchNormLinear.lin x W r c := by
  unfold refLin BatchNormLinear.lin
  simp only [Host.dotGeneral]
  rw [Ideal.dotGeneral_apply, ← Equiv.sum_comp cE.symm]
  refine Finset.sum_congr rfl fun k _ => ?_
  rw [lhs_eq, rhs_eq, transpose_ix2_apply]

/-! ## The constants -/

/-- The pattern of the float 100000 denotes the real 100000: (2²³ + 4411392) · 2⁻⁷. -/
theorem ofBits_rows : Ideal.ofBits .f32 0x47C35000#32 = ((100000 : ℝ) : EReal) := by
  simp [Ideal.ofBits, Ideal.ieee, -EReal.coe_mul]; norm_num

/-- The row count is positive. -/
theorem nRows_pos : (0 : EReal) < BatchNormLinear.nRows := by
  unfold BatchNormLinear.nRows
  rw [ofBits_rows]
  exact EReal.coe_pos.mpr (by norm_num)

theorem cZero_apply (i : S_.Idx) : cZero (F := Ideal) i = 0 := Ideal.ofBits_zero_f32
theorem cRows_apply (i : S_.Idx) : cRows (F := Ideal) i = BatchNormLinear.nRows := rfl
theorem cEps_apply (i : S_.Idx) : cEps (F := Ideal) i = BatchNormLinear.eps := rfl

/-! ## The broadcasts and the column sums -/

/-- A per-column vector given a unit row axis reads, at (0, c), the vector at c. -/
theorem bcastRow_apply {α : Type} (v : S512.Idx → α) (u : Fin 1) (c : Fin 512) :
    broadcastInDim S1x512 ![1] bcast_S512_S1x512_1 v (ix2 u c) = v (ix1 c) := by
  refine broadcastInDim_apply ![1] bcast_S512_S1x512_1 v (ix2 u c) (ix1 c) ?_
  intro a
  match a with
  | ⟨0, _⟩ => rfl

/-- A per-column vector laid along every row reads, at (r, c), the vector at c. -/
theorem refRows_apply {α : Type} (v : S512.Idx → α) (r : Fin 100000) (c : Fin 512) :
    refRows v (ix2 r c) = v (ix1 c) := by
  unfold refRows
  rw [broadcastInDim_oneRow_apply, bcastRow_apply]

/-- A column's sum: zero plus the sum over the rows. -/
theorem refColSum_apply (h : FVec Ideal S100000x512 .f32) (c : Fin 512) :
    refColSum h (ix1 c) = ∑ r : Fin 100000, h (ix2 r c) := by
  unfold refColSum
  rw [hostReduceAdd_apply, Ideal.hostReduceAdd_single reducesTo_S100000x512_S512_d0 (by decide : S100000x512.Reduces [0] S512),
    cZero_apply, zero_add]
  refine Finset.sum_congr rfl fun k _ => congrArg h ?_
  funext a
  match a with
  | ⟨0, _⟩ => rfl
  | ⟨1, _⟩ => rfl

/-! ## The mean, the variance and the result -/

/-- The array read by rows and columns. -/
abbrev asFn (h : FVec Ideal S100000x512 .f32) : Fin 100000 → Fin 512 → EReal := fun r c => h (ix2 r c)

theorem refMean_apply (h : FVec Ideal S100000x512 .f32) (c : Fin 512) :
    refMean h (ix1 c) = BatchNormLinear.mean (asFn h) c := by
  unfold refMean BatchNormLinear.mean BatchNormLinear.colSum
  rw [hostDivf_apply, refColSum_apply, broadcastInDim_scalar_apply, cRows_apply]

/-- The variance function's own mean, taken with the row axis kept, is the same mean. -/
theorem refVarDev_apply (h : FVec Ideal S100000x512 .f32) (r : Fin 100000) (c : Fin 512) :
    refVarDev h (ix2 r c) = h (ix2 r c) - BatchNormLinear.mean (asFn h) c := by
  unfold refVarDev BatchNormLinear.mean BatchNormLinear.colSum
  rw [subf_apply, broadcastInDim_oneRow_apply, hostDivf_apply, bcastRow_apply, refColSum_apply,
    broadcastInDim_scalar_apply, cRows_apply]

/-- The divisor: the integer zero converts to the real zero, and the row count less zero is the row count. -/
theorem refVarDen_apply (i : S_.Idx) : refVarDen (F := Ideal) i = BatchNormLinear.nRows := by
  unfold refVarDen
  rw [subf_apply, cRows_apply, sitofp_apply]
  show BatchNormLinear.nRows - (((0#32 : BitVec 32).toInt : ℝ) : EReal) = _
  simp

/-- The row count exceeds zero, so the comparison's bit is set. -/
theorem cmp_rows : Ideal.cmp .ogt BatchNormLinear.nRows 0 = 1#1 := by
  unfold Ideal.cmp
  simp [nRows_pos]

/-- A column's variance: the selection takes the quotient of the summed squared deviations by the row count. -/
theorem refVar_apply (h : FVec Ideal S100000x512 .f32) (c : Fin 512) :
    refVar h (ix1 c)
      = Ideal.div (∑ r : Fin 100000, (h (ix2 r c) - BatchNormLinear.mean (asFn h) c) * (h (ix2 r c) - BatchNormLinear.mean (asFn h) c))
          BatchNormLinear.nRows := by
  unfold refVar
  rw [select_apply, broadcastInDim_scalar_apply, cmpf_apply, refVarDen_apply, cZero_apply, Ideal.cmpf_def, cmp_rows,
    select_one, hostDivf_apply, broadcastInDim_scalar_apply, refVarDen_apply, hostReduceAdd_apply,
    Ideal.hostReduceAdd_single reducesTo_S100000x512_S512_d0 (by decide : S100000x512.Reduces [0] S512), cZero_apply, zero_add]
  refine congrArg (Ideal.div · BatchNormLinear.nRows) (Finset.sum_congr rfl fun (k : Fin 100000) _ => ?_)
  have e : (by decide : S100000x512.Reduces [0] S512).lift (ix1 c) k = ix2 k c := by
    funext a
    match a with
    | ⟨0, _⟩ => rfl
    | ⟨1, _⟩ => rfl
  rw [e, mulf_apply, refVarDev_apply]

/-- The result at (r, c), for any array in the linear layer's place. -/
theorem refOut_apply (h : FVec Ideal S100000x512 .f32) (g b : FVec Ideal S512 .f32) (r : Fin 100000) (c : Fin 512) :
    refOut h g b (ix2 r c) = BatchNormLinear.outTwoPass (asFn h) g b r c := by
  unfold refOut refAffine BatchNormLinear.outTwoPass
  rw [maximumf_apply, broadcastInDim_scalar_apply, cZero_apply, addf_apply, mulf_apply, hostDivf_apply, subf_apply,
    refRows_apply, refRows_apply, refRows_apply, refRows_apply, refMean_apply]
  show max (g (ix1 c) * Ideal.div (h (ix2 r c) - BatchNormLinear.mean (asFn h) c)
      (Ideal.sqrt (refVar h (ix1 c) + broadcastInDim S512 ![] bcast_S_S512 (cEps (F := Ideal)) (ix1 c))) + b (ix1 c)) 0 = _
  rw [refVar_apply, broadcastInDim_scalar_apply, cEps_apply]

/-- The reference's term is the two-pass batch normalisation of the linear layer, as an array. -/
theorem refTerm_eq (x : FVec Ideal S100000x512 .f32) (W : FVec Ideal S512x512 .f32) (g b : FVec Ideal S512 .f32) :
    refTerm (F := Ideal) x W g b = BatchNormLinear.arr2 (BatchNormLinear.outTwoPass (BatchNormLinear.lin x W) g b) := by
  funext i
  obtain ⟨r, c, rfl⟩ : ∃ (r : Fin 100000) (c : Fin 512), i = ix2 r c := ⟨i 0, i 1, eq_ix2 i⟩
  rw [BatchNormLinear.arr2_ix2]
  unfold refTerm
  rw [refOut_apply]
  exact congrArg (fun H => BatchNormLinear.outTwoPass H g b r c)
    (funext fun r => funext fun c => refLin_apply x W r c)

end Cert.ReferenceIdeal.RefValue

end
-- ==== Proof.Algebra.lean ====
/-
  The algebra behind the two batch-normalisation formulas, with no program in sight.

  Every entry being a real, every quantity in sight is the coercion of a real expression: the row count is the
  real 100000, the guard is a positive real, a division by a nonzero real is a product with its reciprocal, and
  the coercion commutes with sums, differences, products and finite sums.  Over the reals the mean of squares
  less the squared mean is the mean of the squared deviations (expand the square; n · mean = ∑ h), that common
  variance is nonnegative, so variance plus guard is positive, the reciprocal square root and the square root
  take their ordinary branch, and the two affine forms agree by ring arithmetic.
-/
import proofs.«117202_g37288906064498_cont_8to1_b_846_11_alg».proof.Proof.Spec
import Mathlib

noncomputable section

namespace BatchNormLinear

open Idealize.ShloMosaic Idealize.ShloMosaic.ValueIdx

/-- The row count denotes the real 100000: (2^23 + 0x435000) · 2^(143 − 127 − 23). -/
theorem nRows_eq : nRows = ((100000 : ℝ) : EReal) := by
  simp [nRows, Ideal.ofBits, Ideal.ieee, -EReal.coe_mul]; norm_num

/-- The guard denotes a positive real: (2^23 + 0x27C5AC) · 2^(110 − 127 − 23). -/
theorem eps_eq : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- The coercion of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The linear layer of real arrays is real. -/
theorem lin_real (x : Xs.Idx → EReal) (W : Ws.Idx → EReal)
    (hx : ∀ i, ∃ y : ℝ, x i = (y : EReal)) (hW : ∀ i, ∃ y : ℝ, W i = (y : EReal))
    (r : Fin 100000) (c : Fin 512) : ∃ y : ℝ, lin x W r c = (y : EReal) := by
  choose xr hxr using hx
  choose Wr hWr using hW
  refine ⟨∑ k : Fin 512, xr (ix2 r k) * Wr (ix2 c k), ?_⟩
  rw [lin, coe_finsum]
  refine Finset.sum_congr rfl fun k _ => ?_
  rw [hxr, hWr, EReal.coe_mul]

/-- Over the reals: the mean of squares less the squared mean is the mean of the squared deviations. -/
theorem variance_real (f : Fin 100000 → ℝ) :
    (∑ r : Fin 100000, f r * f r) * (1 / 100000)
        - ((∑ r : Fin 100000, f r) * (1 / 100000)) * ((∑ r : Fin 100000, f r) * (1 / 100000))
      = (∑ r : Fin 100000, (f r - (∑ r : Fin 100000, f r) * (1 / 100000))
            * (f r - (∑ r : Fin 100000, f r) * (1 / 100000))) * (1 / 100000) := by
  set S : ℝ := ∑ r : Fin 100000, f r with hS
  have expand : ∀ r : Fin 100000, (f r - S * (1 / 100000)) * (f r - S * (1 / 100000))
      = f r * f r - (2 * (S * (1 / 100000))) * f r + (S * (1 / 100000)) * (S * (1 / 100000)) := fun r => by ring
  simp only [expand]
  rw [Finset.sum_add_distrib, Finset.sum_sub_distrib, ← Finset.mul_sum, Finset.sum_const, Finset.card_univ,
    Fintype.card_fin, ← hS]
  simp only [nsmul_eq_mul]
  push_cast
  ring

/-- The two groupings of the affine map agree: a·(g·s⁻¹) + (b − m·(g·s⁻¹)) = g·((a − m)·(1/s)) + b over the reals. -/
theorem affine_real (a g b m s : ℝ) :
    (a : EReal) * ((g : EReal) * ((s⁻¹ : ℝ) : EReal)) + ((b : EReal) - (m : EReal) * ((g : EReal) * ((s⁻¹ : ℝ) : EReal)))
      = (g : EReal) * (((a : EReal) - (m : EReal)) * ((1 / s : ℝ) : EReal)) + (b : EReal) := by
  norm_cast
  ring

/-- The two formulas agree on real data. -/
theorem onePass_eq_twoPass (h : Fin 100000 → Fin 512 → EReal) (g b : Vs.Idx → EReal)
    (hh : ∀ r c, ∃ y : ℝ, h r c = (y : EReal)) (hg : ∀ i, ∃ y : ℝ, g i = (y : EReal))
    (hb : ∀ i, ∃ y : ℝ, b i = (y : EReal))
    (r : Fin 100000) (c : Fin 512) : outOnePass h g b r c = outTwoPass h g b r c := by
  choose hr hh' using hh
  choose gr hg' using hg
  choose br hb' using hb
  obtain ⟨e, he, heps⟩ := eps_eq
  have hn : (100000 : ℝ) ≠ 0 := by norm_num
  -- the column's statistics, as reals
  have hcolSum : colSum h c = ((∑ r' : Fin 100000, hr r' c : ℝ) : EReal) := by
    rw [colSum, coe_finsum]; exact Finset.sum_congr rfl fun r' _ => hh' r' c
  have hcolSumSq : colSumSq h c = ((∑ r' : Fin 100000, hr r' c * hr r' c : ℝ) : EReal) := by
    rw [colSumSq, coe_finsum]
    refine Finset.sum_congr rfl fun r' _ => ?_
    rw [hh' r' c, EReal.coe_mul]
  have hmean : mean h c = (((∑ r' : Fin 100000, hr r' c) * (1 / 100000) : ℝ) : EReal) := by
    rw [mean, hcolSum, nRows_eq, Ideal.div_coe hn, ← EReal.coe_mul]
  have hdev : (∑ r' : Fin 100000, (h r' c - mean h c) * (h r' c - mean h c))
      = ((∑ r' : Fin 100000, (hr r' c - (∑ r' : Fin 100000, hr r' c) * (1 / 100000))
          * (hr r' c - (∑ r' : Fin 100000, hr r' c) * (1 / 100000)) : ℝ) : EReal) := by
    rw [coe_finsum]
    refine Finset.sum_congr rfl fun r' _ => ?_
    rw [hh' r' c, hmean, ← EReal.coe_sub, ← EReal.coe_mul]
  -- the common variance is nonnegative, so variance plus guard is positive
  have hv0 : 0 ≤ (∑ r' : Fin 100000, (hr r' c - (∑ r' : Fin 100000, hr r' c) * (1 / 100000))
          * (hr r' c - (∑ r' : Fin 100000, hr r' c) * (1 / 100000))) * (1 / 100000 : ℝ) :=
    mul_nonneg (Finset.sum_nonneg fun r' _ => mul_self_nonneg _) (by norm_num)
  have hvar := variance_real (fun r' => hr r' c)
  set μ : ℝ := (∑ r' : Fin 100000, hr r' c) * (1 / 100000) with hμ
  set v : ℝ := (∑ r' : Fin 100000, (hr r' c - μ) * (hr r' c - μ)) * (1 / 100000) with hv
  have ht : 0 < v + e := by linarith
  have hs : 0 < Real.sqrt (v + e) := Real.sqrt_pos.mpr ht
  have hone : Ideal.div (colSumSq h c) nRows - mean h c * mean h c + eps = ((v + e : ℝ) : EReal) := by
    rw [hcolSumSq, nRows_eq, Ideal.div_coe hn, hmean, heps, ← EReal.coe_mul, ← EReal.coe_mul, ← EReal.coe_sub,
      ← EReal.coe_add, hvar]
  have htwo : Ideal.div (∑ r' : Fin 100000, (h r' c - mean h c) * (h r' c - mean h c)) nRows + eps
      = ((v + e : ℝ) : EReal) := by
    rw [hdev, nRows_eq, Ideal.div_coe hn, heps, ← EReal.coe_mul, ← EReal.coe_add]
  rw [outOnePass, outTwoPass, hone, htwo, Ideal.rsqrt_coe, Ideal.sqrt_coe, if_neg (not_lt.mpr ht.le),
    if_neg ht.ne', if_neg (not_lt.mpr ht.le), Ideal.div_coe hs.ne', hmean, hh' r c, hg' (ix1 c), hb' (ix1 c)]
  exact congrArg (fun t : EReal => max t 0)
    (affine_real (hr r c) (gr (ix1 c)) (br (ix1 c)) μ (Real.sqrt (v + e)))

end BatchNormLinear

end
-- ==== Proof.Finite.lean ====
/-
  From the printed precondition to "every entry of every float input is a real".

  The precondition is a conjunction of five tests, one per float argument: every entry's absolute value is below
  the float +∞.  Each test is a reduction by "and" of a pointwise comparison, so where it is 1 the comparison is 1
  at every index; the pattern 0x7F800000 denotes ⊤; and an extended real x with max x (−x) < ⊤ is neither ⊥
  (whose negation is ⊤) nor ⊤, hence a real.
-/
import proofs.«117202_g37288906064498_cont_8to1_b_846_11_alg».proof.Pre_finite_inputs
import proofs.«117202_g37288906064498_cont_8to1_b_846_11_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Real

open Idealize.ShloMosaic Cert.Pre_finite_inputs

/-- The shape of a scalar has one index. -/
instance : Subsingleton S_.Idx := ⟨fun a b => funext fun d => d.elim0⟩

/-- The all-ones exponent with a zero significand denotes +∞. -/
theorem ofBits_inf : Ideal.ofBits .f32 0x7F800000#32 = (⊤ : EReal) := by
  simp [Ideal.ofBits, Ideal.ieee]

/-- An extended real whose absolute value is below +∞ is a real. -/
theorem real_of_abs_lt (x : EReal)
    (h : Ideal.cmp .olt (max x (-x)) (Ideal.ofBits .f32 0x7F800000#32) = 1#1) : ∃ y : ℝ, x = (y : EReal) := by
  rw [ofBits_inf] at h
  induction x using EReal.rec with
  | bot => simp [Ideal.cmp] at h
  | coe y => exact ⟨y, rfl⟩
  | top => simp [Ideal.cmp] at h

/-- One test of the precondition, read back: where the reduction by "and" of the comparison of |x| with the
    broadcast +∞ is 1, every entry of x is a real. -/
theorem all_real {s : Shape} (x : FVec Ideal s .f32) (dims : Fin S_.rank → Fin s.rank)
    (hb : S_.BroadcastsInDim s dims) {axes : List (Fin s.rank)} (hr : s.ReducesTo axes S_) (hu : 0 < S_.numel)
    (init : IVec S_ 1) (j : S_.Idx)
    (e : Host.reduce IntOp.andi
          (cmpf .olt (Host.absf x) (broadcastInDim s dims hb (constant (F := Ideal) S_ .f32 0x7F800000#32))) init hr hu j
        = 1#1) (i : s.Idx) : ∃ y : ℝ, x i = (y : EReal) :=
  real_of_abs_lt (x i) (Host.reduce_andi_all _ init hr hu j e i)

/-- THE PRECONDITION DECODED: every entry of the activations, the weight and the two per-column vectors is a real. -/
theorem real_of_pre [Cert.Pre_finite_inputs.Facts] (a0 : FVec Ideal S100000x3 .f32) (a1 : FVec Ideal S100000x512 .f32)
    (a2 : IVec S4 32) (a3 : FVec Ideal S512x512 .f32) (a4 a5 : FVec Ideal S512 .f32)
    (h : Cert.Pre_finite_inputs.fn (F := Ideal) a0 a1 a2 a3 a4 a5 = fun _ => 1#1) :
    (∀ i, ∃ y : ℝ, a1 i = (y : EReal)) ∧ (∀ i, ∃ y : ℝ, a3 i = (y : EReal))
      ∧ (∀ i, ∃ y : ℝ, a4 i = (y : EReal)) ∧ (∀ i, ∃ y : ℝ, a5 i = (y : EReal)) := by
  have e := congrFun h ValueIdx.ix0
  dsimp only [Cert.Pre_finite_inputs.fn, Cert.Pre_finite_inputs.fn_part1] at e
  simp only [andi, IntOp.andi_eq_one] at e
  obtain ⟨⟨⟨⟨-, h1⟩, h3⟩, h4⟩, h5⟩ := e
  exact ⟨all_real a1 _ _ _ _ _ _ h1, all_real a3 _ _ _ _ _ _ h3, all_real a4 _ _ _ _ _ _ h4,
    all_real a5 _ _ _ _ _ _ h5⟩

end Cert.Pre_finite_inputs.Real

end
-- ==== Proof.lean ====
/-
  A linear layer followed by batch normalisation with the batch's own statistics, an affine map and a rectifier,
  over 100000 rows and 512 columns: the kernel against its reference, on the extended reals.

  THE KERNEL takes the product `h = x · Wᵀ` in twenty-five row blocks, adding up each column's sum of `h` and of `h²` as
  it goes, and then, in twenty row blocks, applies `max (h · s + (β − mean · s)) 0` with `mean = (∑ h) / n` and
  `s = γ · ((∑ h²) / n − mean² + ε)^(-1/2)`: the variance in ONE pass over the rows.
  THE REFERENCE takes the same product at once, the mean, then the variance as the mean of the squared deviations —
  a SECOND pass —, and applies `max (γ · ((h − mean) / √(var + ε)) + β) 0`.
  Both divide by the same float 100000 and guard with the same float nearest 1e-5. Where every input is finite every
  `h` is a real, the two variances are one real (expand the square), it is nonnegative, so `var + ε` is positive, the
  reciprocal square root is the reciprocal of the square root, and the two affine forms agree. That is the algebraic
  claim. Each program's frame — it runs to the end, faults nowhere, leaves its arguments as launched — is read off its
  run; the idealization rewrote nothing, so there is nothing to preserve.
-/
import proofs.«117202_g37288906064498_cont_8to1_b_846_11_alg».proof.Defs
import proofs.«117202_g37288906064498_cont_8to1_b_846_11_alg».proof.Proof.Gen.Kernel
import proofs.«117202_g37288906064498_cont_8to1_b_846_11_alg».proof.Proof.Gen.KernelIdeal
import proofs.«117202_g37288906064498_cont_8to1_b_846_11_alg».proof.Proof.Gen.ReferenceIdeal
import proofs.«117202_g37288906064498_cont_8to1_b_846_11_alg».proof.Proof.Gen.Pre_finite_inputs
import proofs.«117202_g37288906064498_cont_8to1_b_846_11_alg».proof.Proof.KernelRun
import proofs.«117202_g37288906064498_cont_8to1_b_846_11_alg».proof.Proof.KernelIdealValue
import proofs.«117202_g37288906064498_cont_8to1_b_846_11_alg».proof.Proof.RefRun
import proofs.«117202_g37288906064498_cont_8to1_b_846_11_alg».proof.Proof.RefValue
import proofs.«117202_g37288906064498_cont_8to1_b_846_11_alg».proof.Proof.Algebra
import proofs.«117202_g37288906064498_cont_8to1_b_846_11_alg».proof.Proof.Finite

noncomputable section

namespace Cert.Proof

open Idealize.ShloMosaic Idealize.SL.Sem

/-- The word-level kernel's frame: its run with the result dropped. -/
theorem frame_k : Cert.frame_Kernel := fun m ρ _ =>
  (θ_run (Cert.Kernel.defs (F := Bits)) _ _).mono (fun _ h c => (h c).2) (Cert.Kernel.Hand.run (F := Bits) m ρ)

/-- The idealized kernel's frame: the same run at the extended reals. -/
theorem frame_ki : Cert.frame_KernelIdeal := fun m ρ _ =>
  (θ_run (Cert.KernelIdeal.defs (F := Ideal)) _ _).mono (fun _ h c => (h c).2) (Cert.KernelIdeal.Hand.run (F := Ideal) m ρ)

/-- The idealized reference's frame: its run with the result dropped. -/
theorem frame_ri : Cert.frame_ReferenceIdeal := fun m ρ _ =>
  (θ_run (Cert.ReferenceIdeal.defs (F := Ideal)) _ _).mono (fun _ h c => (h c).2) (Cert.ReferenceIdeal.RefValue.run (F := Ideal) m ρ)

/-- The idealization rewrote nothing. -/
theorem preserves : Cert.preserves_Kernel_KernelIdeal := trivial

/-- From memories agreeing on the arguments, all of them finite, both programs run; the kernel's result is the one-pass
    normalisation of the linear layer of the arguments, the reference's the two-pass one: one function. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => BatchNormLinear.arr2 (BatchNormLinear.outOnePass
      (BatchNormLinear.lin (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))),
    fun c => m ((c.tc : Thread Cert.KernelIdeal.nD Cert.KernelIdeal.τ).loc Cert.KernelIdeal.main_arg2), ?_, ?_⟩
  · refine (θ_run (Cert.KernelIdeal.defs (F := Ideal)) _ _).mono (fun r h c => ?_) (Cert.KernelIdeal.HandValue.run m ρ)
    obtain ⟨hv, h0, h1, h2, h3, h4, h5⟩ := h c
    exact ⟨h0, hv, h2, h0, h1, h2, h3, h4, h5⟩
  · refine (θ_run (Cert.ReferenceIdeal.defs (F := Ideal)) _ _).mono (fun r h c => ?_)
      (Cert.ReferenceIdeal.RefValue.run (F := Ideal) m' ρ')
    obtain ⟨hv, h0, h1, h2, h3, h4, h5⟩ := h c
    obtain ⟨a0, a1, a2, a3, a4, a5⟩ := hagree c
    refine ⟨h0.trans a0, ?_, h2.trans a2, h0, h1, h2, h3, h4, h5⟩
    rw [hv, Cert.ReferenceIdeal.RefValue.refTerm_eq, a1, a3, a4, a5]
    obtain ⟨r1, r3, r4, r5⟩ := Cert.Pre_finite_inputs.Real.real_of_pre _ _ _ _ _ _ (hpre c)
    funext i
    exact (BatchNormLinear.onePass_eq_twoPass _ _ _ (BatchNormLinear.lin_real _ _ r1 r3) r4 r5 (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
